-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S1024x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  main_v23

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : IVec S1024 1) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S512x1024 : Shape := ⟨2, ![512, 1024]⟩
abbrev S2x2048x16x64 : Shape := ⟨4, ![2, 2048, 16, 64]⟩
abbrev S2x16x2048x64 : Shape := ⟨4, ![2, 16, 2048, 64]⟩
abbrev S32x2048x64 : Shape := ⟨3, ![32, 2048, 64]⟩
abbrev S16x64 : Shape := ⟨2, ![16, 64]⟩
abbrev S1x16x1x64 : Shape := ⟨4, ![1, 16, 1, 64]⟩
abbrev S2x16x1x64 : Shape := ⟨4, ![2, 16, 1, 64]⟩
abbrev S32x64 : Shape := ⟨2, ![32, 64]⟩
abbrev S32x1x64 : Shape := ⟨3, ![32, 1, 64]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x1x64 : Shape := ⟨3, ![1, 1, 64]⟩
abbrev S1x256x2048 : Shape := ⟨3, ![1, 256, 2048]⟩
abbrev S256x64 : Shape := ⟨2, ![256, 64]⟩
abbrev S2048x64 : Shape := ⟨2, ![2048, 64]⟩
abbrev S1x64 : Shape := ⟨2, ![1, 64]⟩
abbrev S256x2048 : Shape := ⟨2, ![256, 2048]⟩
abbrev S256 : Shape := ⟨1, ![256]⟩
abbrev S256x1 : Shape := ⟨2, ![256, 1]⟩
abbrev S2x16x2048x2048 : Shape := ⟨4, ![2, 16, 2048, 2048]⟩

abbrev nBuf : Space → Nat
  | .hbm => 39
  | .vmem => 28
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .i1⟩
  | .hbm, ⟨6, _⟩ => ⟨S4096x1024, .f32⟩
  | .hbm, ⟨7, _⟩ => ⟨S4096x1024, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S2x2048x16x64, .f32⟩
  | .hbm, ⟨16, _⟩ => ⟨S2x16x2048x64, .f32⟩
  | .hbm, ⟨17, _⟩ => ⟨S32x2048x64, .f32⟩
  | .hbm, ⟨18, _⟩ => ⟨S2x2048x16x64, .f32⟩
  | .hbm, ⟨19, _⟩ => ⟨S2x16x2048x64, .f32⟩
  | .hbm, ⟨20, _⟩ => ⟨S32x2048x64, .f32⟩
  | .hbm, ⟨21, _⟩ => ⟨S2x2048x16x64, .f32⟩
  | .hbm, ⟨22, _⟩ => ⟨S2x16x2048x64, .f32⟩
  | .hbm, ⟨23, _⟩ => ⟨S32x2048x64, .f32⟩
  | .hbm, ⟨24, _⟩ => ⟨S16x64, .i1⟩
  | .hbm, ⟨25, _⟩ => ⟨S16x64, .f32⟩
  | .hbm, ⟨26, _⟩ => ⟨S1x16x1x64, .f32⟩
  | .hbm, ⟨27, _⟩ => ⟨S2x16x1x64, .f32⟩
  | .hbm, ⟨28, _⟩ => ⟨S32x64, .f32⟩
  | .hbm, ⟨29, _⟩ => ⟨S32x1x64, .f32⟩
  | .hbm, ⟨30, _⟩ => ⟨S32x2048x64, .f32⟩
  | .hbm, ⟨31, _⟩ => ⟨S32x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x256x64, .f32⟩
  | .local _ .vmem, ⟨12, _⟩ => ⟨S1x256x64, .f32⟩
  | .local _ .vmem, ⟨13, _⟩ => ⟨S1x2048x64, .f32⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x1x64, .f32⟩
  | .local _ .vmem, ⟨18, _⟩ => ⟨S1x1x64, .f32⟩
  | .local _ .vmem, ⟨19, _⟩ => ⟨S1x256x64, .f32⟩
  | .local _ .vmem, ⟨20, _⟩ => ⟨S1x256x64, .f32⟩
  | .local _ .vmem, ⟨21, _⟩ => ⟨S1x256x2048, .f32⟩
  | .local _ .vmem, ⟨22, _⟩ => ⟨S1x256x2048, .f32⟩
  | .local _ .vmem, ⟨23, _⟩ => ⟨S512x1024, .bf16⟩
  | .local _ .vmem, ⟨24, _⟩ => ⟨S512x1024, .bf16⟩
  | .local _ .vmem, ⟨25, _⟩ => ⟨S1024x1024, .bf16⟩
  | .local _ .vmem, ⟨26, _⟩ => ⟨S512x1024, .f32⟩
  | .local _ .vmem, ⟨27, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg2_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem2_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![32, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S2x2048x1024_S4096x1024 : S2x2048x1024.ShapeCasts S4096x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  shapeCasts_S2x16x2048x64_S32x2048x64 : S2x16x2048x64.ShapeCasts S32x2048x64
  shapeCasts_S1024_S16x64 : S1024.ShapeCasts S16x64
  shapeCasts_S16x64_S1x16x1x64 : S16x64.ShapeCasts S1x16x1x64
  bcast_S1x16x1x64_S2x16x1x64_0_1_2_3 : S1x16x1x64.BroadcastsInDim S2x16x1x64 (![0, 1, 2, 3] : Fin 4 → Fin S2x16x1x64.rank)
  shapeCasts_S2x16x1x64_S32x64 : S2x16x1x64.ShapeCasts S32x64
  shapeCasts_S32x64_S32x1x64 : S32x64.ShapeCasts S32x1x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x64 : S1x64.ShapeCasts S1x64
  broadcasts_S1x64_S256x64 : S1x64.Broadcasts S256x64
  reduces_S256x64_S256 : S256x64.Reduces [1] S256
  shapeCasts_S256_S256x1 : S256.ShapeCasts S256x1
  broadcasts_S256x1_S256x64 : S256x1.Broadcasts S256x64
  reduces_S256x2048_S256 : S256x2048.Reduces [1] S256
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S32x2048x2048_S2x16x2048x2048 : S32x2048x2048.ShapeCasts S2x16x2048x2048
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S4096x1024_S2x2048x1024 : S4096x1024.ShapeCasts S2x2048x1024
  dot_S512x1024_S1024x1024_S512x1024_1_1_0_0_n_n_wf : DotDims.WF S512x1024 S1024x1024 S512x1024 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .f32 = 32 ∨ (Rect.block (s := S4096x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S32x2048x64.size a
  hwx1_0 : ∀ i : grid1.Coords, EltTy.bits .f32 = 32 ∨ (Rect.block (s := S32x2048x64) S1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .f32 = 32 ∨ (Rect.block (s := S32x2048x64) S1x2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .f32 = 32 ∨ (Rect.block (s := S32x2048x64) S1x2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x64.size a ≤ S32x1x64.size a
  hwx1_3 : ∀ i : grid1.Coords, EltTy.bits .f32 = 32 ∨ (Rect.block (s := S32x1x64) S1x1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x64.size a ≤ S32x2048x64.size a
  hwx1_4 : ∀ i : grid1.Coords, EltTy.bits .f32 = 32 ∨ (Rect.block (s := S32x2048x64) S1x256x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x2048.size a ≤ S32x2048x2048.size a
  hwx1_5 : ∀ i : grid1.Coords, EltTy.bits .f32 = 32 ∨ (Rect.block (s := S32x2048x2048) S1x256x2048.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1024.size a ≤ S4096x1024.size a
  hwx2_2 : ∀ i : grid2.Coords, EltTy.bits .f32 = 32 ∨ (Rect.block (s := S4096x1024) S512x1024.size (cc2_transform_2 i) (hinb2_2 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v9) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v21) S1x1x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v22_0) S1x256x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22_1) S1x256x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v27) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S512x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S16x64 : Shape := ⟨2, ![16, 64]⟩
abbrev S1x16x1x64 : Shape := ⟨4, ![1, 16, 1, 64]⟩
abbrev S2x16x2048 : Shape := ⟨3, ![2, 16, 2048]⟩
abbrev S2x16x2048x1 : Shape := ⟨4, ![2, 16, 2048, 1]⟩

abbrev nBuf : Space → Nat
  | .hbm => 72
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .i1⟩
  | .hbm, ⟨6, _⟩ => ⟨S_, .f32⟩
  | .hbm, ⟨7, _⟩ => ⟨S_, .f32⟩
  | .hbm, ⟨8, _⟩ => ⟨S2x2048x1024, .f32⟩
  | .hbm, ⟨9, _⟩ => ⟨S2x2048x16x64, .f32⟩
  | .hbm, ⟨10, _⟩ => ⟨S2x16x2048x64, .f32⟩
  | .hbm, ⟨11, _⟩ => ⟨S2x2048x1024, .f32⟩
  | .hbm, ⟨12, _⟩ => ⟨S2x2048x16x64, .f32⟩
  | .hbm, ⟨13, _⟩ => ⟨S2x16x2048x64, .f32⟩
  | .hbm, ⟨14, _⟩ => ⟨S2x2048x1024, .f32⟩
  | .hbm, ⟨15, _⟩ => ⟨S2x2048x16x64, .f32⟩
  | .hbm, ⟨16, _⟩ => ⟨S2x16x2048x64, .f32⟩
  | .hbm, ⟨17, _⟩ => ⟨S2x16x2048x2048, .f32⟩
  | .hbm, ⟨18, _⟩ => ⟨S2x16x2048x2048, .f32⟩
  | .hbm, ⟨19, _⟩ => ⟨S2x16x2048x2048, .f32⟩
  | .hbm, ⟨20, _⟩ => ⟨S16x64, .i1⟩
  | .hbm, ⟨21, _⟩ => ⟨S16x64, .f32⟩
  | .hbm, ⟨22, _⟩ => ⟨S1x16x1x64, .f32⟩
  | .hbm, ⟨23, _⟩ => ⟨S2x16x2048x64, .f32⟩
  | .hbm, ⟨24, _⟩ => ⟨S2x16x2048x64, .f32⟩
  | .hbm, ⟨25, _⟩ => ⟨S2x16x2048x64, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x1, .f32⟩
  | .hbm, ⟨30, _⟩ => ⟨S2x16x2048x64, .f32⟩
  | .hbm, ⟨31, _⟩ => ⟨S_, .f32⟩
  | .hbm, ⟨32, _⟩ => ⟨S2x16x2048, .f32⟩
  | .hbm, ⟨33, _⟩ => ⟨S2x16x2048x1, .f32⟩
  | .hbm, ⟨34, _⟩ => ⟨S2x16x2048x1, .f32⟩
  | .hbm, ⟨35, _⟩ => ⟨S_, .f32⟩
  | .hbm, ⟨36, _⟩ => ⟨S2x16x2048x1, .f32⟩
  | .hbm, ⟨37, _⟩ => ⟨S2x16x2048x1, .i1⟩
  | .hbm, ⟨38, _⟩ => ⟨S_, .f32⟩
  | .hbm, ⟨39, _⟩ => ⟨S2x16x2048x1, .f32⟩
  | .hbm, ⟨40, _⟩ => ⟨S2x16x2048x1, .f32⟩
  | .hbm, ⟨41, _⟩ => ⟨S2x16x2048x1, .f32⟩
  | .hbm, ⟨42, _⟩ => ⟨S_, .f32⟩
  | .hbm, ⟨43, _⟩ => ⟨S2x16x2048x1, .f32⟩
  | .hbm, ⟨44, _⟩ => ⟨S2x16x2048x1, .f32⟩
  | .hbm, ⟨45, _⟩ => ⟨S2x16x2048x64, .f32⟩
  | .hbm, ⟨46, _⟩ => ⟨S2x16x2048x64, .f32⟩
  | .hbm, ⟨47, _⟩ => ⟨S2x16x2048x2048, .f32⟩
  | .hbm, ⟨48, _⟩ => ⟨S2x16x2048x2048, .f32⟩
  | .hbm, ⟨49, _⟩ => ⟨S2x16x2048x2048, .f32⟩
  | .hbm, ⟨50, _⟩ => ⟨S_, .f32⟩
  | .hbm, ⟨51, _⟩ => ⟨S2x16x2048x2048, .f32⟩
  | .hbm, ⟨52, _⟩ => ⟨S2x16x2048x2048, .f32⟩
  | .hbm, ⟨53, _⟩ => ⟨S2x16x2048x2048, .f32⟩
  | .hbm, ⟨54, _⟩ => ⟨S_, .f32⟩
  | .hbm, ⟨55, _⟩ => ⟨S2x16x2048, .f32⟩
  | .hbm, ⟨56, _⟩ => ⟨S_, .f32⟩
  | .hbm, ⟨57, _⟩ => ⟨S2x16x2048, .f32⟩
  | .hbm, ⟨58, _⟩ => ⟨S2x16x2048, .f32⟩
  | .hbm, ⟨59, _⟩ => ⟨S2x16x2048x1, .f32⟩
  | .hbm, ⟨60, _⟩ => ⟨S2x16x2048x2048, .f32⟩
  | .hbm, ⟨61, _⟩ => ⟨S2x16x2048x2048, .f32⟩
  | .hbm, ⟨62, _⟩ => ⟨S2x16x2048x2048, .f32⟩
  | .hbm, ⟨63, _⟩ => ⟨S_, .f32⟩
  | .hbm, ⟨64, _⟩ => ⟨S2x16x2048, .f32⟩
  | .hbm, ⟨65, _⟩ => ⟨S2x16x2048x1, .f32⟩
  | .hbm, ⟨66, _⟩ => ⟨S2x16x2048x2048, .f32⟩
  | .hbm, ⟨67, _⟩ => ⟨S2x16x2048x2048, .f32⟩
  | .hbm, ⟨68, _⟩ => ⟨S2x16x2048x64, .f32⟩
  | .hbm, ⟨69, _⟩ => ⟨S2x2048x16x64, .f32⟩
  | .hbm, ⟨70, _⟩ => ⟨S2x2048x1024, .f32⟩
  | .hbm, ⟨71, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_cst : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  shapeCasts_S1024_S16x64 : S1024.ShapeCasts S16x64
  bcast_S16x64_S1x16x1x64_1_3 : S16x64.BroadcastsInDim S1x16x1x64 (![1, 3] : Fin 2 → Fin S1x16x1x64.rank)
  bcast_S1x16x1x64_S2x16x2048x64_0_1_2_3 : S1x16x1x64.BroadcastsInDim S2x16x2048x64 (![0, 1, 2, 3] : Fin 4 → Fin S2x16x2048x64.rank)
  reducesTo_S2x16x2048x64_S2x16x2048_d3 : S2x16x2048x64.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S_S2x16x2048x1 : S_.BroadcastsInDim S2x16x2048x1 (![] : Fin 0 → Fin S2x16x2048x1.rank)
  bcast_S2x16x2048x1_S2x16x2048x64_0_1_2_3 : S2x16x2048x1.BroadcastsInDim S2x16x2048x64 (![0, 1, 2, 3] : Fin 4 → Fin S2x16x2048x64.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run, with every buffer that outlives the regions read at its final contents.

  @main is three kernel regions among four stretches of host operations. The generated frame module names the buffer
  contents at each boundary (a fold from the launch memory: a stretch applies its operations, a region leaves each of
  its output arrays at what its write-backs made of it); its last boundary is `W7`. Here the same launch is run with a
  post-condition that keeps ALL of that boundary: every weakly fair execution terminates, and every unscoped buffer of
  the TensorCore ends at `W7`'s contents — the two results among them, and the six arguments.
-/
import proofs.«104060_j4337916969590_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and each unscoped TensorCore buffer `b` of each
    core ends at the last boundary's contents `W7 m ρ c b`. -/
theorem run_final : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W7 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

end Cert.KernelIdeal.RunValue

end
-- ==== Proof.Boundaries.lean ====
/-
  What the host operations between the regions make of the buffers.

  Before the first region the input is flattened to 4096 rows (and it and the four weights rounded to bf16 — the
  identity over the extended reals). Between the first and second regions each projection is split into heads: the flat
  [4096, 1024] array is read as [2, 2048, 16, 64], the sequence and head axes are exchanged, and batch and head are
  merged into 32; the boolean mask becomes one 0/1 row of 64 features per (batch, head). Between the second and third
  regions the probabilities are unmerged to [2, 16, 2048, 2048] (the second result) and the attended values are put
  back into 4096 flat rows. After the third region the flat output is unflattened (the first result).
  Each lemma reads one buffer at a region's entry, or a result at the end, from the buffers at the previous region's exit.
-/
import proofs.«104060_j4337916969590_2_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

namespace Cert.KernelIdeal.Boundaries

open Cert.KernelIdeal Cert.KernelIdeal.Gen Idealize.ShloMosaic Idealize.ShloMosaic.TcCoe Idealize.SL.Sem Idealize.ShloMosaic.StableHlo

/-- A flat [4096, 1024] array split into 32 heads of 2048 rows of 64 features. -/
def toHeads (X : S4096x1024.Idx → EReal) : S32x2048x64.Idx → EReal :=
  shapeCast S32x2048x64 (transpose S2x16x2048x64 [0, 2, 1, 3] (shapeCast S2x2048x16x64 X shapeCasts_S4096x1024_S2x2048x16x64)
    transposes_S2x2048x16x64_S2x16x2048x64_0_2_1_3) shapeCasts_S2x16x2048x64_S32x2048x64

/-- 32 heads of rows put back into 4096 flat rows. -/
def fromHeads (X : S32x2048x64.Idx → EReal) : S4096x1024.Idx → EReal :=
  shapeCast S4096x1024 (transpose S2x2048x16x64 [0, 2, 1, 3] (shapeCast S2x16x2048x64 X shapeCasts_S32x2048x64_S2x16x2048x64)
    transposes_S2x16x2048x64_S2x2048x16x64_0_2_1_3) shapeCasts_S2x2048x16x64_S4096x1024

/-- A [16, 64] array of mask values as one row per (batch, head). -/
def maskRows (M : S16x64.Idx → EReal) : S32x1x64.Idx → EReal :=
  shapeCast S32x1x64 (shapeCast S32x64 (broadcastInDim S2x16x1x64 ![0, 1, 2, 3] bcast_S1x16x1x64_S2x16x1x64_0_1_2_3
    (shapeCast S1x16x1x64 M shapeCasts_S16x64_S1x16x1x64)) shapeCasts_S2x16x1x64_S32x64) shapeCasts_S32x64_S32x1x64

variable (m : (ℓ : Loc nD τ sig) → Buf (Elt Ideal) ℓ) (ρ : Dev nD → PrngReg) (c : Dev nD)

/-! ## The first region's entry -/

theorem entry0_rows : (V1 m ρ c main_v1 : S4096x1024.Idx → EReal)
    = shapeCast S4096x1024 (m ((c : Thread nD τ).loc main_arg0)) shapeCasts_S2x2048x1024_S4096x1024 := by
  show StableHlo.after hostOps0 (W0 m ρ c) (Proc.devRef .tc main_v1) = _
  after_results
  rfl

theorem entry0_wq : (V1 m ρ c main_v2 : S1024x1024.Idx → EReal) = m ((c : Thread nD τ).loc main_arg1) := by
  show StableHlo.after hostOps0 (W0 m ρ c) (Proc.devRef .tc main_v2) = _
  after_results
  rfl

theorem entry0_wk : (V1 m ρ c main_v3 : S1024x1024.Idx → EReal) = m ((c : Thread nD τ).loc main_arg2) := by
  show StableHlo.after hostOps0 (W0 m ρ c) (Proc.devRef .tc main_v3) = _
  after_results
  rfl

theorem entry0_wv : (V1 m ρ c main_v4 : S1024x1024.Idx → EReal) = m ((c : Thread nD τ).loc main_arg3) := by
  show StableHlo.after hostOps0 (W0 m ρ c) (Proc.devRef .tc main_v4) = _
  after_results
  rfl

/-- The fourth weight and the mask are not touched before they are used. -/
theorem early_wo : (W1 m ρ c (Proc.devRef .tc main_v5) : S1024x1024.Idx → EReal) = m ((c : Thread nD τ).loc main_arg4) := by
  show StableHlo.after hostOps0 (W0 m ρ c) (Proc.devRef .tc main_v5) = _
  after_results
  rfl

theorem early_mask : (W1 m ρ c (Proc.devRef .tc main_arg5)) = m ((c : Thread nD τ).loc main_arg5) := by
  show StableHlo.after hostOps0 (W0 m ρ c) (Proc.devRef .tc main_arg5) = _
  after_results

/-! ## The second region's entry -/

theorem entry1_q : (V3 m ρ c main_v9 : S32x2048x64.Idx → EReal) = toHeads (W2 m ρ c (Proc.devRef .tc main_v6_0)) := by
  show StableHlo.after hostOps1 (W2 m ρ c) (Proc.devRef .tc main_v9) = _
  after_results
  rfl

theorem entry1_k : (V3 m ρ c main_v12 : S32x2048x64.Idx → EReal) = toHeads (W2 m ρ c (Proc.devRef .tc main_v6_1)) := by
  show StableHlo.after hostOps1 (W2 m ρ c) (Proc.devRef .tc main_v12) = _
  after_results
  rfl

theorem entry1_v : (V3 m ρ c main_v15 : S32x2048x64.Idx → EReal) = toHeads (W2 m ρ c (Proc.devRef .tc main_v6_2)) := by
  show StableHlo.after hostOps1 (W2 m ρ c) (Proc.devRef .tc main_v15) = _
  after_results
  rfl

theorem entry1_mask : (V3 m ρ c main_v21 : S32x1x64.Idx → EReal)
    = maskRows (uitofp .f32 (shapeCast S16x64 (m ((c : Thread nD τ).loc main_arg5)) shapeCasts_S1024_S16x64) : FVec Ideal S16x64 .f32) := by
  show StableHlo.after hostOps1 (W2 m ρ c) (Proc.devRef .tc main_v21) = _
  after_results
  rw [W2_of_ne m ρ c main_arg5 (by decide), early_mask]
  rfl

/-! ## The second result, and the third region's entry -/

theorem result_probs : (W7 m ρ c (Proc.devRef .tc main_v23) : S2x16x2048x2048.Idx → EReal)
    = shapeCast S2x16x2048x2048 (W4 m ρ c (Proc.devRef .tc main_v22_1) : S32x2048x2048.Idx → EReal) shapeCasts_S32x2048x2048_S2x16x2048x2048 := by
  show StableHlo.after hostOps3 (W6 m ρ c) (Proc.devRef .tc main_v23) = _
  after_results
  rw [W6_of_ne m ρ c main_v23 (by decide)]
  show StableHlo.after hostOps2 (W4 m ρ c) (Proc.devRef .tc main_v23) = _
  after_results
  rfl

theorem entry2_rows : (V5 m ρ c main_v27 : S4096x1024.Idx → EReal) = fromHeads (W4 m ρ c (Proc.devRef .tc main_v22_0)) := by
  show StableHlo.after hostOps2 (W4 m ρ c) (Proc.devRef .tc main_v27) = _
  after_results
  rfl

theorem entry2_wo : (V5 m ρ c main_v5 : S1024x1024.Idx → EReal) = m ((c : Thread nD τ).loc main_arg4) := by
  show StableHlo.after hostOps2 (W4 m ρ c) (Proc.devRef .tc main_v5) = _
  after_results
  rw [W4_of_ne m ρ c main_v5 (by decide)]
  show StableHlo.after hostOps1 (W2 m ρ c) (Proc.devRef .tc main_v5) = _
  after_results
  rw [W2_of_ne m ρ c main_v5 (by decide)]
  exact early_wo m ρ c

/-! ## The first result -/

theorem result_out : (W7 m ρ c (Proc.devRef .tc main_v29) : S2x2048x1024.Idx → EReal)
    = shapeCast S2x2048x1024 (W6 m ρ c (Proc.devRef .tc main_v28) : S4096x1024.Idx → EReal) shapeCasts_S4096x1024_S2x2048x1024 := by
  show StableHlo.after hostOps3 (W6 m ρ c) (Proc.devRef .tc main_v29) = _
  after_results
  rfl

end Cert.KernelIdeal.Boundaries

end
-- ==== Proof.LibShapeCastTrans.lean ====
/-
  Reshaping an array twice is reshaping it once.

  A reshape keeps every element's row-major position, so going from shape `s` to `t` and then from `t` to `u`
  reads each element of `u` at the element of `s` with the same position: the reshape from `s` to `u`.
  (The library has the there-and-back case; this is the law for three different shapes.)
-/
import Idealize.ShloMosaic.Lib.Pipeline.Value

namespace Cert.ShapeCastTrans

open Idealize.ShloMosaic

/-- A reshape of a reshape is the reshape straight to the last shape: both read the element of the source that has
    the same row-major position as the index asked for. -/
theorem shapeCast_trans {s t u : Shape} {α : Type} (v : s.Idx → α) (h : s.ShapeCasts t) (h' : t.ShapeCasts u)
    (h'' : s.ShapeCasts u) :
    shapeCast u (shapeCast t v h) h' = shapeCast u v h'' :=
  funext fun i => congrArg v (Shape.reshapeEquiv_reshapeEquiv h h' i)

end Cert.ShapeCastTrans
-- ==== Proof.HeadLayout.lean ====
/-
  Heads, merged and split, read at an index.

  Merging batch and head of a [2, 16, 2048, 64] array into 32 puts (b, h) at 16·b + h. The mask's row for merged head
  16·b + h is the mask's row for head h. Splitting a flattened projection into heads is splitting the unflattened one;
  putting merged heads back into flat rows undoes the merge first. All are facts about row-major positions.
-/
import proofs.«104060_j4337916969590_2_alg».proof.Proof.Boundaries
import proofs.«104060_j4337916969590_2_alg».proof.Proof.LibShapeCastTrans
import Idealize.ShloMosaic.Lib.ValueIdx

noncomputable section

namespace Cert.KernelIdeal.HeadLayout

open Cert.KernelIdeal Cert.KernelIdeal.Gen Cert.KernelIdeal.Boundaries Cert.ShapeCastTrans
open Idealize.ShloMosaic Idealize.ShloMosaic.ValueIdx

/-- Batch and head merged into one axis of 32. -/
def merge (X : S2x16x2048x64.Idx → EReal) : S32x2048x64.Idx → EReal :=
  shapeCast S32x2048x64 X shapeCasts_S2x16x2048x64_S32x2048x64

/-- Merged head 16·b + h, row q, feature d is entry (b, h, q, d). -/
theorem merge_apply (X : S2x16x2048x64.Idx → EReal) (b : Fin 2) (h : Fin 16) (q : Fin 2048) (d : Fin 64)
    (hg : b.val * 16 + h.val < 32) :
    merge X (ix3 (⟨b.val * 16 + h.val, hg⟩ : Fin 32) q d) = X (ix4 b h q d) :=
  shapeCast_apply X shapeCasts_S2x16x2048x64_S32x2048x64 _ (ix4 b h q d) (by
    rw [Shape.rowMajor_val_four, Shape.rowMajor_val_three]
    show ((b.val * 16 + h.val) * 2048 + q.val) * 64 + d.val = ((b.val * 16 + h.val) * 2048 + q.val) * 64 + d.val
    rfl)

/-- The probabilities' axes merge the same way. -/
theorem unmerge_apply (P : S32x2048x2048.Idx → EReal) (b : Fin 2) (h : Fin 16) (q k : Fin 2048)
    (hg : b.val * 16 + h.val < 32) :
    shapeCast S2x16x2048x2048 P shapeCasts_S32x2048x2048_S2x16x2048x2048 (ix4 b h q k)
      = P (ix3 (⟨b.val * 16 + h.val, hg⟩ : Fin 32) q k) :=
  shapeCast_apply P shapeCasts_S32x2048x2048_S2x16x2048x2048 (ix4 b h q k) _ (by
    rw [Shape.rowMajor_val_three, Shape.rowMajor_val_four]
    show ((b.val * 16 + h.val) * 2048 + q.val) * 2048 + k.val = ((b.val * 16 + h.val) * 2048 + q.val) * 2048 + k.val
    rfl)

/-- The mask row of merged head 16·b + h is the mask's row h. -/
theorem maskRows_apply (M : S16x64.Idx → EReal) (b : Fin 2) (h : Fin 16) (d : Fin 64) (hg : b.val * 16 + h.val < 32) :
    maskRows M (ix3 (⟨b.val * 16 + h.val, hg⟩ : Fin 32) (0 : Fin 1) d) = M (ix2 h d) := by
  unfold maskRows
  refine (shapeCast_apply _ shapeCasts_S32x64_S32x1x64 _ (ix2 (⟨b.val * 16 + h.val, hg⟩ : Fin 32) d) (by
    rw [Shape.rowMajor_val_two, Shape.rowMajor_val_three]
    show (b.val * 16 + h.val) * 64 + d.val = ((b.val * 16 + h.val) * 1 + 0) * 64 + d.val
    omega)).trans ?_
  refine (shapeCast_apply _ shapeCasts_S2x16x1x64_S32x64 _ (ix4 b h (0 : Fin 1) d) (by
    rw [Shape.rowMajor_val_four, Shape.rowMajor_val_two]
    show ((b.val * 16 + h.val) * 1 + 0) * 64 + d.val = (b.val * 16 + h.val) * 64 + d.val
    omega)).trans ?_
  refine (broadcastInDim_apply _ bcast_S1x16x1x64_S2x16x1x64_0_1_2_3 _ _ (ix4 (0 : Fin 1) h (0 : Fin 1) d) (fun a => by
    match a with
    | ⟨0, _⟩ => show (0 : Nat) = if (1 : Nat) = 1 then 0 else b.val; rw [if_pos rfl]
    | ⟨1, _⟩ => show h.val = if (16 : Nat) = 1 then 0 else h.val; rw [if_neg (by decide)]
    | ⟨2, _⟩ => show (0 : Nat) = if (1 : Nat) = 1 then 0 else 0; rw [if_pos rfl]
    | ⟨3, _⟩ => show d.val = if (64 : Nat) = 1 then 0 else d.val; rw [if_neg (by decide)])).trans ?_
  exact shapeCast_apply M shapeCasts_S16x64_S1x16x1x64 _ (ix2 h d) (by
    rw [Shape.rowMajor_val_two, Shape.rowMajor_val_four]
    show h.val * 64 + d.val = (((0 : Nat) * 16 + h.val) * 1 + 0) * 64 + d.val
    omega)

/-- Splitting a flattened [2, 2048, 1024] array into heads is splitting the array itself. -/
theorem toHeads_flat (X0 : S2x2048x1024.Idx → EReal) (hsc : S2x2048x1024.ShapeCasts S2x2048x16x64) :
    toHeads (shapeCast S4096x1024 X0 shapeCasts_S2x2048x1024_S4096x1024)
      = merge (transpose S2x16x2048x64 [0, 2, 1, 3] (shapeCast S2x2048x16x64 X0 hsc) transposes_S2x2048x16x64_S2x16x2048x64_0_2_1_3) := by
  unfold toHeads merge
  rw [shapeCast_trans X0 shapeCasts_S2x2048x1024_S4096x1024 shapeCasts_S4096x1024_S2x2048x16x64 hsc]

/-- Putting merged heads back into flat rows undoes the merge first; and flat rows of an array that was first given
    the [2, 2048, 1024] shape are its flat rows. -/
theorem fromHeads_merge (Y : S2x16x2048x64.Idx → EReal) (h1 : S2x2048x16x64.ShapeCasts S2x2048x1024) :
    fromHeads (merge Y)
      = shapeCast S4096x1024 (shapeCast S2x2048x1024 (transpose S2x2048x16x64 [0, 2, 1, 3] Y transposes_S2x16x2048x64_S2x2048x16x64_0_2_1_3) h1)
          shapeCasts_S2x2048x1024_S4096x1024 := by
  unfold fromHeads merge
  rw [shapeCast_shapeCast, shapeCast_trans _ h1 shapeCasts_S2x2048x1024_S4096x1024 shapeCasts_S2x2048x16x64_S4096x1024]

end Cert.KernelIdeal.HeadLayout

end
-- ==== Proof.ProjSpec.lean ====
/-
  A linear projection x·Wᵀ over the extended reals, entry by entry.

  For a 4096 × 1024 array `A` of rows and a 1024 × 1024 weight matrix `W`, entry (r, e) of the projection is the sum
  over the 1024 features `k` of `A[r, k] · W[e, k]`: the rows are contracted against the ROWS of `W` (torch's Linear).
-/
import Idealize.ShloMosaic.PureOps.Ideal
import Idealize.ShloMosaic.Lib.ValueIdx
import Mathlib.Algebra.BigOperators.Fin

noncomputable section

namespace Cert.Projection

open Idealize.ShloMosaic Idealize.ShloMosaic.ValueIdx

/-- Entry (r, e) of `A·Wᵀ`. -/
def projAt (A : (⟨2, ![4096, 1024]⟩ : Shape).Idx → EReal) (W : (⟨2, ![1024, 1024]⟩ : Shape).Idx → EReal) (r : Fin 4096) (e : Fin 1024) : EReal :=
  ∑ k : Fin 1024, A (ix2 r k) * W (ix2 e k)

/-- `A·Wᵀ` as one array. -/
def projArr (A : (⟨2, ![4096, 1024]⟩ : Shape).Idx → EReal) (W : (⟨2, ![1024, 1024]⟩ : Shape).Idx → EReal) : (⟨2, ![4096, 1024]⟩ : Shape).Idx → EReal :=
  fun i => projAt A W ⟨(i 0).val, (i 0).isLt⟩ ⟨(i 1).val, (i 1).isLt⟩

/-- A sum of products of entries of a block of 512 rows and of a weight block is the projection's entry at `i`, once
    each block entry read is the array's entry in row `i 0`, resp. the weight's in row `i 1`. -/
theorem sum_eq_projArr (A : (⟨2, ![4096, 1024]⟩ : Shape).Idx → EReal) (W : (⟨2, ![1024, 1024]⟩ : Shape).Idx → EReal)
    (x0 : (⟨2, ![512, 1024]⟩ : Shape).Idx → EReal) (x1 : (⟨2, ![1024, 1024]⟩ : Shape).Idx → EReal)
    (i : (⟨2, ![4096, 1024]⟩ : Shape).Idx) (p : Fin 512) (e : Fin 1024)
    (h0 : ∀ k : Fin 1024, x0 (ix2 p k) = A (ix2 (⟨(i 0).val, (i 0).isLt⟩ : Fin 4096) k))
    (h1 : ∀ k : Fin 1024, x1 (ix2 e k) = W (ix2 (⟨(i 1).val, (i 1).isLt⟩ : Fin 1024) k)) :
    ∑ k : Fin 1024, x0 (ix2 p k) * x1 (ix2 e k) = projArr A W i := by
  unfold projArr projAt
  exact Finset.sum_congr rfl fun k _ => by rw [h0 k, h1 k]

end Cert.Projection

end
-- ==== Proof.ProjPayload.lean ====
/-
  The projection kernels' arithmetic at an entry.

  Each projection kernel multiplies a block of 512 rows (rounded to bf16, which changes nothing over the extended reals)
  by a whole weight matrix on the matrix unit, contracting the feature axis of both, into a zero accumulator: entry
  (p, e) of the result is the sum over the features `k` of `x[p, k] · w[e, k]`. The three projections of the first
  kernel and the one of the last are the same term.
-/
import proofs.«104060_j4337916969590_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.ProjPayload

open Cert.KernelIdeal Cert.KernelIdeal.Gen Idealize.ShloMosaic Idealize.ShloMosaic.ValueIdx Idealize.ShloMosaic.TcCoe Idealize.SL.Sem

/-- The matrix product's left operand index keeps the result's row. -/
theorem lhs_row (i : S512x1024.Idx) (q : (dot_S512x1024_S1024x1024_S512x1024_1_1_0_0_n_n).contr.Idx) :
    ((dot_S512x1024_S1024x1024_S512x1024_1_1_0_0_n_n).lhsIdx i q 0).val = (i 0).val := by
  unfold DotDims.lhsIdx
  rw [dif_neg (show ¬(0 : Fin S512x1024.rank) ∈ (dot_S512x1024_S1024x1024_S512x1024_1_1_0_0_n_n).lhsBatch by decide), dif_pos (show (0 : Fin S512x1024.rank) ∈ (dot_S512x1024_S1024x1024_S512x1024_1_1_0_0_n_n).lhsNonContracting by decide)]
  rfl
/-- Its feature coordinate is the contraction index. -/
theorem lhs_feat (i : S512x1024.Idx) (q : (dot_S512x1024_S1024x1024_S512x1024_1_1_0_0_n_n).contr.Idx) :
    ((dot_S512x1024_S1024x1024_S512x1024_1_1_0_0_n_n).lhsIdx i q 1).val = (q ⟨0, by decide⟩).val :=
  (dot_S512x1024_S1024x1024_S512x1024_1_1_0_0_n_n).lhsIdx_val_of_single rfl i q
/-- The right operand's row is the result's column. -/
theorem rhs_row (i : S512x1024.Idx) (q : (dot_S512x1024_S1024x1024_S512x1024_1_1_0_0_n_n).contr.Idx) :
    ((dot_S512x1024_S1024x1024_S512x1024_1_1_0_0_n_n).rhsIdx i q 0).val = (i 1).val := by
  unfold DotDims.rhsIdx
  rw [dif_neg (show ¬(0 : Fin S1024x1024.rank) ∈ (dot_S512x1024_S1024x1024_S512x1024_1_1_0_0_n_n).rhsBatch by decide), dif_pos (show (0 : Fin S1024x1024.rank) ∈ (dot_S512x1024_S1024x1024_S512x1024_1_1_0_0_n_n).rhsNonContracting by decide)]
  rfl
/-- Its feature coordinate is the contraction index. -/
theorem rhs_feat (i : S512x1024.Idx) (q : (dot_S512x1024_S1024x1024_S512x1024_1_1_0_0_n_n).contr.Idx) :
    ((dot_S512x1024_S1024x1024_S512x1024_1_1_0_0_n_n).rhsIdx i q 1).val = (q ⟨0, by decide⟩).val :=
  (dot_S512x1024_S1024x1024_S512x1024_1_1_0_0_n_n).rhsIdx_val_of_single rfl i q

/-- Entry (p, e) of the first projection's payload: the features' products summed. -/
theorem pay_apply (x0 : Vec Ideal S512x1024 .bf16) (x1 : Vec Ideal S1024x1024 .bf16) (p : Fin 512) (e : Fin 1024) :
    k0_pay2 (F := Ideal) x0 x1 (ix2 p e) = ∑ k : Fin 1024, x0 (ix2 p k) * x1 (ix2 e k) := by
  unfold k0_pay2 k0_pay1
  simp only [shapeCast_self]
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : (dot_S512x1024_S1024x1024_S512x1024_1_1_0_0_n_n).lhsIdx (ix2 p e) ((ValueIdx.contrEquiv1 dot_S512x1024_S1024x1024_S512x1024_1_1_0_0_n_n 1024 rfl rfl).symm k) = ix2 p k := funext fun a => Fin.ext (by
    match a with
    | ⟨0, _⟩ => exact lhs_row _ _
    | ⟨1, _⟩ => exact (lhs_feat _ _).trans hk)
  have er : (dot_S512x1024_S1024x1024_S512x1024_1_1_0_0_n_n).rhsIdx (ix2 p e) ((ValueIdx.contrEquiv1 dot_S512x1024_S1024x1024_S512x1024_1_1_0_0_n_n 1024 rfl rfl).symm k) = ix2 e k := funext fun a => Fin.ext (by
    match a with
    | ⟨0, _⟩ => exact rhs_row _ _
    | ⟨1, _⟩ => exact (rhs_feat _ _).trans hk)
  rw [el, er]

/-- The second and third projections of the first kernel, and the last kernel's, are the same term. -/
theorem pay3_eq (x0 : Vec Ideal S512x1024 .bf16) (x : Vec Ideal S1024x1024 .bf16) : k0_pay3 (F := Ideal) x0 x = k0_pay2 (F := Ideal) x0 x := rfl
theorem pay4_eq (x0 : Vec Ideal S512x1024 .bf16) (x : Vec Ideal S1024x1024 .bf16) : k0_pay4 (F := Ideal) x0 x = k0_pay2 (F := Ideal) x0 x := rfl
theorem pay_out_eq (x0 : Vec Ideal S512x1024 .bf16) (x : Vec Ideal S1024x1024 .bf16) : k2_pay1 (F := Ideal) x0 x = k0_pay2 (F := Ideal) x0 x := rfl

end Cert.KernelIdeal.ProjPayload

end
-- ==== Proof.ProjBlocks.lean ====
/-
  From blocks to arrays, for the four projections.

  Each projection region walks eight grid points; at point `t` it stages rows 512·t … 512·t + 511 of the input array
  and the whole weight matrix, and writes back the same rows of the output. What a point writes back is therefore that
  block of ONE whole-array function — the projection `A·Wᵀ` of the two arrays as the region finds them — and the eight
  blocks tile the output, so after the region the output array IS that projection. Stated at any contents `V` of the
  buffers at the region's entry.
-/
import proofs.«104060_j4337916969590_2_alg».proof.Proof.Gen.KernelIdeal.Frame
import proofs.«104060_j4337916969590_2_alg».proof.Proof.ProjSpec
import proofs.«104060_j4337916969590_2_alg».proof.Proof.ProjPayload

set_option maxRecDepth 16384

noncomputable section

namespace Cert.KernelIdeal.ProjBlocks

open Cert.KernelIdeal Cert.KernelIdeal.Gen Cert.KernelIdeal.ProjPayload Cert.Projection
open Idealize.ShloMosaic Idealize.ShloMosaic.ValueIdx Idealize.ShloMosaic.TcCoe Idealize.SL.Sem
open Idealize.ShloMosaic.Pipeline (Dat)

/-- The zero offsets of a whole-buffer access, however spelt. -/
theorem hz : (![0, 0] : Fin 2 → Nat) = fun _ => 0 := funext fun a => by fin_cases a <;> rfl

variable (V : (c : Dev nD) → (b : Ref sig .tc) → Buf (Elt Ideal) ((c : Thread nD τ).loc b))

/-! ## The query projection (first region, first output) -/

/-- The index maps over the grid: the row block moves with the point, the weight block stays, the output block moves
    with the row block. -/
theorem idx_q : ∀ t : Fin cfg0.N, win0_0.index t (0 : Fin 2) = t.val ∧ win0_0.index t (1 : Fin 2) = 0
    ∧ win0_1.index t (0 : Fin 2) = 0 ∧ win0_1.index t (1 : Fin 2) = 0
    ∧ win0_4.index t (0 : Fin 2) = t.val ∧ win0_4.index t (1 : Fin 2) = 0 :=
  (by decide +kernel : ∀ t : Fin grid0.N, _)

/-- What point `t` writes back is block `t` of the projection of the two arrays as the region finds them. -/
theorem flushed_q (c : Dev nD) (t : Fin cfg0.N) :
    (dat0 (F := Ideal) V c).flushed 4 t = ((cfg0.win 4).blk t).view.read (Elt Ideal) (projArr (V c main_v1) (V c main_v2)) := by
  show (cfg0.win 4).cut (grid0.coords t) ((dat0 V c).after 4 t) = _
  rw [after0_4]
  unfold out0_4
  rw [View.canon_unit_zero hz]
  simp only [View.ld_unit_zero (S := S512x1024) hz, View.ld_unit_zero (S := S1024x1024) hz]
  funext j
  obtain ⟨p, e, rfl⟩ : ∃ (p : Fin 512) (e : Fin 1024), j = ix2 p e := ⟨j 0, j 1, eq_ix2 j⟩
  refine (pay_apply _ _ p e).trans ?_
  obtain ⟨e0, e1, e2, e3, e4, e5⟩ := idx_q t
  refine sum_eq_projArr (V c main_v1) (V c main_v2) _ _ (((cfg0.win 4).blk t).view.emb (ix2 p e)) p e (fun k => ?_) (fun k => ?_)
  · show V c main_v1 (((cfg0.win 0).blk t).view.emb (ix2 p k)) = V c main_v1 _
    refine congrArg (V c main_v1) ?_
    funext a; apply Fin.ext
    match a with
    | ⟨0, _⟩ => show win0_0.index t (0 : Fin 2) * 512 + 1 * p.val = win0_4.index t (0 : Fin 2) * 512 + 1 * p.val; omega
    | ⟨1, _⟩ => show win0_0.index t (1 : Fin 2) * 1024 + 1 * k.val = k.val; omega
  · show V c main_v2 (((cfg0.win 1).blk t).view.emb (ix2 e k)) = V c main_v2 _
    refine congrArg (V c main_v2) ?_
    funext a; apply Fin.ext
    match a with
    | ⟨0, _⟩ => show win0_1.index t (0 : Fin 2) * 1024 + 1 * e.val = win0_4.index t (1 : Fin 2) * 1024 + 1 * e.val; omega
    | ⟨1, _⟩ => show win0_1.index t (1 : Fin 2) * 1024 + 1 * k.val = k.val; omega

/-- An entry is in point `t`'s block iff each coordinate is in the block's range. -/
theorem mem_blk_q (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v6_0).slice (win0_4.rect t)).set ↔ _
  rw [View.set_slice_whole, Rect.mem_set_unit]
  exact Iff.rfl

/-- Row `r` is written back by point `r / 512`: the eight blocks of 512 rows tile the array. -/
theorem cover_q (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have ht : (i 0).val / 512 < cfg0.N := by show _ < 8; omega
  obtain ⟨-, -, -, -, e4, e5⟩ := idx_q ⟨(i 0).val / 512, ht⟩
  refine ⟨⟨(i 0).val / 512, ht⟩, flush0_4 _, ?_⟩
  rw [mem_blk_q]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_4.index ⟨(i 0).val / 512, ht⟩ (1 : Fin 2) * 1024 ≤ (i 1).val ∧ (i 1).val < win0_4.index ⟨(i 0).val / 512, ht⟩ (1 : Fin 2) * 1024 + 1024
    rw [e5]; omega

/-- The array after the region: the projection of the two arrays the region found. -/
theorem final_q (c : Dev nD) : (dat0 (F := Ideal) V c).arrAt 4 cfg0.N = projArr (V c main_v1) (V c main_v2) :=
  (dat0 (F := Ideal) V c).arrAt_eq_of_cover 4 (projArr (V c main_v1) (V c main_v2)) (fun t _ => flushed_q V c t) cover_q

/-! ## The key projection (first region, second output) -/

/-- The index maps over the grid: the row block moves with the point, the weight block stays, the output block moves
    with the row block. -/
theorem idx_k : ∀ t : Fin cfg0.N, win0_0.index t (0 : Fin 2) = t.val ∧ win0_0.index t (1 : Fin 2) = 0
    ∧ win0_2.index t (0 : Fin 2) = 0 ∧ win0_2.index t (1 : Fin 2) = 0
    ∧ win0_5.index t (0 : Fin 2) = t.val ∧ win0_5.index t (1 : Fin 2) = 0 :=
  (by decide +kernel : ∀ t : Fin grid0.N, _)

/-- What point `t` writes back is block `t` of the projection of the two arrays as the region finds them. -/
theorem flushed_k (c : Dev nD) (t : Fin cfg0.N) :
    (dat0 (F := Ideal) V c).flushed 5 t = ((cfg0.win 5).blk t).view.read (Elt Ideal) (projArr (V c main_v1) (V c main_v3)) := by
  show (cfg0.win 5).cut (grid0.coords t) ((dat0 V c).after 5 t) = _
  rw [after0_5]
  unfold out0_5
  rw [View.canon_unit_zero hz]
  simp only [View.ld_unit_zero (S := S512x1024) hz, View.ld_unit_zero (S := S1024x1024) hz]
  funext j
  obtain ⟨p, e, rfl⟩ : ∃ (p : Fin 512) (e : Fin 1024), j = ix2 p e := ⟨j 0, j 1, eq_ix2 j⟩
  refine ((congrFun (pay3_eq _ _) _).trans <| pay_apply _ _ p e).trans ?_
  obtain ⟨e0, e1, e2, e3, e4, e5⟩ := idx_k t
  refine sum_eq_projArr (V c main_v1) (V c main_v3) _ _ (((cfg0.win 5).blk t).view.emb (ix2 p e)) p e (fun k => ?_) (fun k => ?_)
  · show V c main_v1 (((cfg0.win 0).blk t).view.emb (ix2 p k)) = V c main_v1 _
    refine congrArg (V c main_v1) ?_
    funext a; apply Fin.ext
    match a with
    | ⟨0, _⟩ => show win0_0.index t (0 : Fin 2) * 512 + 1 * p.val = win0_5.index t (0 : Fin 2) * 512 + 1 * p.val; omega
    | ⟨1, _⟩ => show win0_0.index t (1 : Fin 2) * 1024 + 1 * k.val = k.val; omega
  · show V c main_v3 (((cfg0.win 2).blk t).view.emb (ix2 e k)) = V c main_v3 _
    refine congrArg (V c main_v3) ?_
    funext a; apply Fin.ext
    match a with
    | ⟨0, _⟩ => show win0_2.index t (0 : Fin 2) * 1024 + 1 * e.val = win0_5.index t (1 : Fin 2) * 1024 + 1 * e.val; omega
    | ⟨1, _⟩ => show win0_2.index t (1 : Fin 2) * 1024 + 1 * k.val = k.val; omega

/-- An entry is in point `t`'s block iff each coordinate is in the block's range. -/
theorem mem_blk_k (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v6_1).slice (win0_5.rect t)).set ↔ _
  rw [View.set_slice_whole, Rect.mem_set_unit]
  exact Iff.rfl

/-- Row `r` is written back by point `r / 512`: the eight blocks of 512 rows tile the array. -/
theorem cover_k (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have ht : (i 0).val / 512 < cfg0.N := by show _ < 8; omega
  obtain ⟨-, -, -, -, e4, e5⟩ := idx_k ⟨(i 0).val / 512, ht⟩
  refine ⟨⟨(i 0).val / 512, ht⟩, flush0_5 _, ?_⟩
  rw [mem_blk_k]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_5.index ⟨(i 0).val / 512, ht⟩ (1 : Fin 2) * 1024 ≤ (i 1).val ∧ (i 1).val < win0_5.index ⟨(i 0).val / 512, ht⟩ (1 : Fin 2) * 1024 + 1024
    rw [e5]; omega

/-- The array after the region: the projection of the two arrays the region found. -/
theorem final_k (c : Dev nD) : (dat0 (F := Ideal) V c).arrAt 5 cfg0.N = projArr (V c main_v1) (V c main_v3) :=
  (dat0 (F := Ideal) V c).arrAt_eq_of_cover 5 (projArr (V c main_v1) (V c main_v3)) (fun t _ => flushed_k V c t) cover_k

/-! ## The value projection (first region, third output) -/

/-- The index maps over the grid: the row block moves with the point, the weight block stays, the output block moves
    with the row block. -/
theorem idx_v : ∀ t : Fin cfg0.N, win0_0.index t (0 : Fin 2) = t.val ∧ win0_0.index t (1 : Fin 2) = 0
    ∧ win0_3.index t (0 : Fin 2) = 0 ∧ win0_3.index t (1 : Fin 2) = 0
    ∧ win0_6.index t (0 : Fin 2) = t.val ∧ win0_6.index t (1 : Fin 2) = 0 :=
  (by decide +kernel : ∀ t : Fin grid0.N, _)

/-- What point `t` writes back is block `t` of the projection of the two arrays as the region finds them. -/
theorem flushed_v (c : Dev nD) (t : Fin cfg0.N) :
    (dat0 (F := Ideal) V c).flushed 6 t = ((cfg0.win 6).blk t).view.read (Elt Ideal) (projArr (V c main_v1) (V c main_v4)) := by
  show (cfg0.win 6).cut (grid0.coords t) ((dat0 V c).after 6 t) = _
  rw [after0_6]
  unfold out0_6
  rw [View.canon_unit_zero hz]
  simp only [View.ld_unit_zero (S := S512x1024) hz, View.ld_unit_zero (S := S1024x1024) hz]
  funext j
  obtain ⟨p, e, rfl⟩ : ∃ (p : Fin 512) (e : Fin 1024), j = ix2 p e := ⟨j 0, j 1, eq_ix2 j⟩
  refine ((congrFun (pay4_eq _ _) _).trans <| pay_apply _ _ p e).trans ?_
  obtain ⟨e0, e1, e2, e3, e4, e5⟩ := idx_v t
  refine sum_eq_projArr (V c main_v1) (V c main_v4) _ _ (((cfg0.win 6).blk t).view.emb (ix2 p e)) p e (fun k => ?_) (fun k => ?_)
  · show V c main_v1 (((cfg0.win 0).blk t).view.emb (ix2 p k)) = V c main_v1 _
    refine congrArg (V c main_v1) ?_
    funext a; apply Fin.ext
    match a with
    | ⟨0, _⟩ => show win0_0.index t (0 : Fin 2) * 512 + 1 * p.val = win0_6.index t (0 : Fin 2) * 512 + 1 * p.val; omega
    | ⟨1, _⟩ => show win0_0.index t (1 : Fin 2) * 1024 + 1 * k.val = k.val; omega
  · show V c main_v4 (((cfg0.win 3).blk t).view.emb (ix2 e k)) = V c main_v4 _
    refine congrArg (V c main_v4) ?_
    funext a; apply Fin.ext
    match a with
    | ⟨0, _⟩ => show win0_3.index t (0 : Fin 2) * 1024 + 1 * e.val = win0_6.index t (1 : Fin 2) * 1024 + 1 * e.val; omega
    | ⟨1, _⟩ => show win0_3.index t (1 : Fin 2) * 1024 + 1 * k.val = k.val; omega

/-- An entry is in point `t`'s block iff each coordinate is in the block's range. -/
theorem mem_blk_v (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v6_2).slice (win0_6.rect t)).set ↔ _
  rw [View.set_slice_whole, Rect.mem_set_unit]
  exact Iff.rfl

/-- Row `r` is written back by point `r / 512`: the eight blocks of 512 rows tile the array. -/
theorem cover_v (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have ht : (i 0).val / 512 < cfg0.N := by show _ < 8; omega
  obtain ⟨-, -, -, -, e4, e5⟩ := idx_v ⟨(i 0).val / 512, ht⟩
  refine ⟨⟨(i 0).val / 512, ht⟩, flush0_6 _, ?_⟩
  rw [mem_blk_v]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [e4]; show (i 0).val / 512 * 512 ≤ (i 0).val ∧ (i 0).val < (i 0).val / 512 * 512 + 512; omega
  | ⟨1, _⟩ =>
    show win0_6.index ⟨(i 0).val / 512, ht⟩ (1 : Fin 2) * 1024 ≤ (i 1).val ∧ (i 1).val < win0_6.index ⟨(i 0).val / 512, ht⟩ (1 : Fin 2) * 1024 + 1024
    rw [e5]; omega

/-- The array after the region: the projection of the two arrays the region found. -/
theorem final_v (c : Dev nD) : (dat0 (F := Ideal) V c).arrAt 6 cfg0.N = projArr (V c main_v1) (V c main_v4) :=
  (dat0 (F := Ideal) V c).arrAt_eq_of_cover 6 (projArr (V c main_v1) (V c main_v4)) (fun t _ => flushed_v V c t) cover_v

/-! ## The output projection (third region) -/

/-- The index maps over the grid: the row block moves with the point, the weight block stays, the output block moves
    with the row block. -/
theorem idx_o : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the projection of the two arrays as the region finds them. -/
theorem flushed_o (c : Dev nD) (t : Fin cfg2.N) :
    (dat2 (F := Ideal) V c).flushed 2 t = ((cfg2.win 2).blk t).view.read (Elt Ideal) (projArr (V c main_v27) (V c main_v5)) := by
  show (cfg2.win 2).cut (grid2.coords t) ((dat2 V c).after 2 t) = _
  rw [after2_2]
  unfold out2_2
  rw [View.canon_unit_zero hz]
  simp only [View.ld_unit_zero (S := S512x1024) hz, View.ld_unit_zero (S := S1024x1024) hz]
  funext j
  obtain ⟨p, e, rfl⟩ : ∃ (p : Fin 512) (e : Fin 1024), j = ix2 p e := ⟨j 0, j 1, eq_ix2 j⟩
  refine ((congrFun (pay_out_eq _ _) _).trans <| pay_apply _ _ p e).trans ?_
  obtain ⟨e0, e1, e2, e3, e4, e5⟩ := idx_o t
  refine sum_eq_projArr (V c main_v27) (V c main_v5) _ _ (((cfg2.win 2).blk t).view.emb (ix2 p e)) p e (fun k => ?_) (fun k => ?_)
  · show V c main_v27 (((cfg2.win 0).blk t).view.emb (ix2 p k)) = V c main_v27 _
    refine congrArg (V c main_v27) ?_
    funext a; apply Fin.ext
    match a with
    | ⟨0, _⟩ => show win2_0.index t (0 : Fin 2) * 512 + 1 * p.val = win2_2.index t (0 : Fin 2) * 512 + 1 * p.val; omega
    | ⟨1, _⟩ => show win2_0.index t (1 : Fin 2) * 1024 + 1 * k.val = k.val; omega
  · show V c main_v5 (((cfg2.win 1).blk t).view.emb (ix2 e k)) = V c main_v5 _
    refine congrArg (V c main_v5) ?_
    funext a; apply Fin.ext
    match a with
    | ⟨0, _⟩ => show win2_1.index t (0 : Fin 2) * 1024 + 1 * e.val = win2_2.index t (1 : Fin 2) * 1024 + 1 * e.val; omega
    | ⟨1, _⟩ => show win2_1.index t (1 : Fin 2) * 1024 + 1 * k.val = k.val; omega

/-- An entry is in point `t`'s block iff each coordinate is in the block's range. -/
theorem mem_blk_o (t : Fin cfg2.N) (i : S4096x1024.Idx) :
    i ∈ ((cfg2.win 2).blk t).view.set ↔ ∀ a : Fin 2, win2_2.index t a * S512x1024.size a ≤ (i a).val ∧ (i a).val < win2_2.index t a * S512x1024.size a + S512x1024.size a := by
  show i ∈ ((View.whole main_v28).slice (win2_2.rect t)).set ↔ _
  rw [View.set_slice_whole, Rect.mem_set_unit]
  exact Iff.rfl

/-- Row `r` is written back by point `r / 512`: the eight blocks of 512 rows tile the array. -/
theorem cover_o (i : S4096x1024.Idx) : ∃ t : Fin cfg2.N, (cfg2.win 2).flush t = true ∧ i ∈ ((cfg2.win 2).blk t).view.set := by
  have hi0 : (i 0).val < 4096 := (i 0).isLt
  have hi1 : (i 1).val < 1024 := (i 1).isLt
  have ht : (i 0).val / 512 < cfg2.N := by show _ < 8; omega
  obtain ⟨-, -, -, -, e4, e5⟩ := idx_o ⟨(i 0).val / 512, ht⟩
  refine ⟨⟨(i 0).val / 512, ht⟩, flush2_2 _, ?_⟩
  rw [mem_blk_o]
  intro a
  match a with
  | ⟨0, _⟩ =>
    show win2_2.index ⟨(i 0).val / 512, ht⟩ (0 : Fin 2) * 512 ≤ (i 0).val ∧ (i 0).val < win2_2.index ⟨(i 0).val / 512, ht⟩ (0 : Fin 2) * 512 + 512
    rw [e4]; show (i 0).val / 512 * 512 ≤ (i 0).val ∧ (i 0).val < (i 0).val / 512 * 512 + 512; omega
  | ⟨1, _⟩ =>
    show win2_2.index ⟨(i 0).val / 512, ht⟩ (1 : Fin 2) * 1024 ≤ (i 1).val ∧ (i 1).val < win2_2.index ⟨(i 0).val / 512, ht⟩ (1 : Fin 2) * 1024 + 1024
    rw [e5]; omega

/-- The array after the region: the projection of the two arrays the region found. -/
theorem final_o (c : Dev nD) : (dat2 (F := Ideal) V c).arrAt 2 cfg2.N = projArr (V c main_v27) (V c main_v5) :=
  (dat2 (F := Ideal) V c).arrAt_eq_of_cover 2 (projArr (V c main_v27) (V c main_v5)) (fun t _ => flushed_o V c t) cover_o

end Cert.KernelIdeal.ProjBlocks

end
-- ==== Proof.Spec.lean ====
/-
  One query row of attention with a time-like (Minkowski) correction, over the extended reals.

  A head has 64 features. For a query row `q`, a 0/1 feature mask `mk` and the head's 2048 key rows `K`:
  the time-like part of the query is `q · mk` feature by feature; it is rescaled by `‖q‖ / max(‖q·mk‖, ε₂)` when
  `‖q·mk‖ > ε₁` and by `0` otherwise; the score against key `k` is
      ⟨q, K k⟩ · 1/8  −  1/2 · (⟨rescaled time-like part, K k⟩ · 1/8),
  and the row's probabilities are the softmax of the scores: each score minus the row's maximum, exponentiated, over
  the sum of those exponentials. The constants are kept as the f32 words the programs spell (1/8, 1/2, ε₁ = f32(1e-6),
  ε₂ = f32(1e-8), −∞ as the maximum's starting value, +0.0); a sum of squares is a plain finite sum.
-/
import Idealize.ShloMosaic.PureOps.Ideal
import Mathlib.Algebra.BigOperators.Fin

noncomputable section

namespace Cert.TimelikeAttention

open Idealize.ShloMosaic

/-- The scale of a 64-feature head, 1/√64 = 1/8, as its f32 word. -/
def eighth : EReal := Ideal.ofBits .f32 0x3E000000#32
/-- 2α with α = 1/4. -/
def half : EReal := Ideal.ofBits .f32 0x3F000000#32
/-- ε₁: below it a time-like norm counts as absent. -/
def epsHas : EReal := Ideal.ofBits .f32 0x358637BD#32
/-- ε₂: the floor of the divisor. -/
def epsClamp : EReal := Ideal.ofBits .f32 0x322BCC77#32
/-- −∞, from which a row's maximum starts. -/
def negInf : EReal := Ideal.ofBits .f32 0xFF800000#32
/-- +0.0. -/
def zero : EReal := Ideal.ofBits .f32 0x00000000#32

/-- The Euclidean norm of a 64-feature row. -/
def norm (a : Fin 64 → EReal) : EReal := Ideal.sqrt (∑ d : Fin 64, a d * a d)

section Row

variable (q mk : Fin 64 → EReal) (K : Fin 2048 → Fin 64 → EReal)

/-- The time-like part of the query: the masked features. -/
def timelike (d : Fin 64) : EReal := q d * mk d

/-- The factor that gives the time-like part the norm of the whole query (or removes it when it is negligible). -/
def rescale : EReal :=
  Scalar.select (Ideal.cmp .ogt (norm (timelike q mk)) epsHas)
    (Ideal.div (norm q) (max (norm (timelike q mk)) epsClamp)) zero

/-- The corrected score of the query against key row `k`. -/
def score (k : Fin 2048) : EReal :=
  (∑ d : Fin 64, q d * K k d) * eighth - half * ((∑ d : Fin 64, (timelike q mk d * rescale q mk) * K k d) * eighth)

/-- The row's largest score. -/
def top : EReal := (Finset.univ : Finset (Fin 2048)).fold max negInf (score q mk K)

/-- The exponential of a score below the row's maximum. -/
def weight (k : Fin 2048) : EReal := Ideal.exp (score q mk K k - top q mk K)

/-- The softmax probability of key `k` in the row. -/
def prob (k : Fin 2048) : EReal := Ideal.div (weight q mk K k) (∑ k' : Fin 2048, weight q mk K k')

end Row

end Cert.TimelikeAttention

end
-- ==== Proof.AttnSpec.lean ====
/-
  Attention with the time-like correction for all 32 heads at once, as two whole arrays.

  `Q`, `K`, `V` hold 32 heads of 2048 rows of 64 features, `M` one mask row per head. The probability array has, at
  (head, query, key), the row-level softmax probability of that query row against that head's keys; the attended array
  has, at (head, query, feature), the probabilities' weighted sum of the head's value rows.
-/
import proofs.«104060_j4337916969590_2_alg».proof.Proof.Spec
import Idealize.ShloMosaic.Lib.ValueIdx

noncomputable section

namespace Cert.TimelikeAttention

open Idealize.ShloMosaic Idealize.ShloMosaic.ValueIdx

section Heads

variable (Q K V : (⟨3, ![32, 2048, 64]⟩ : Shape).Idx → EReal) (M : (⟨3, ![32, 1, 64]⟩ : Shape).Idx → EReal)

/-- The probability of key row `k` for query row `q` of head `g`. -/
def headProb (g : Fin 32) (q k : Fin 2048) : EReal :=
  prob (fun d : Fin 64 => Q (ix3 g q d)) (fun d : Fin 64 => M (ix3 g (0 : Fin 1) d)) (fun (k' : Fin 2048) (d : Fin 64) => K (ix3 g k' d)) k

/-- The probabilities of every head, query and key. -/
def probsArr : (⟨3, ![32, 2048, 2048]⟩ : Shape).Idx → EReal :=
  fun i => headProb Q K M ⟨(i 0).val, (i 0).isLt⟩ ⟨(i 1).val, (i 1).isLt⟩ ⟨(i 2).val, (i 2).isLt⟩

/-- The attended value of query row `q` of head `g` at feature `d`. -/
def headAttend (g : Fin 32) (q : Fin 2048) (d : Fin 64) : EReal :=
  ∑ k : Fin 2048, headProb Q K M g q k * V (ix3 g k d)

/-- The attended values of every head, query and feature. -/
def attendArr : (⟨3, ![32, 2048, 64]⟩ : Shape).Idx → EReal :=
  fun i => headAttend Q K V M ⟨(i 0).val, (i 0).isLt⟩ ⟨(i 1).val, (i 1).isLt⟩ ⟨(i 2).val, (i 2).isLt⟩

/-- A row-level probability over blocks of one head is the array's entry at `i`, once the blocks' entries read are the
    arrays' entries of head `i 0` (query row `i 1`), and the key is `i 2`. -/
theorem prob_eq_probsArr (x0 : (⟨3, ![1, 256, 64]⟩ : Shape).Idx → EReal) (x1 : (⟨3, ![1, 2048, 64]⟩ : Shape).Idx → EReal)
    (x3 : (⟨3, ![1, 1, 64]⟩ : Shape).Idx → EReal) (i : (⟨3, ![32, 2048, 2048]⟩ : Shape).Idx) (r : Fin 256) (k : Fin 2048)
    (hk : k.val = (i 2).val)
    (h0 : ∀ d : Fin 64, x0 (ix3 (0 : Fin 1) r d) = Q (ix3 (⟨(i 0).val, (i 0).isLt⟩ : Fin 32) (⟨(i 1).val, (i 1).isLt⟩ : Fin 2048) d))
    (h1 : ∀ (k' : Fin 2048) (d : Fin 64), x1 (ix3 (0 : Fin 1) k' d) = K (ix3 (⟨(i 0).val, (i 0).isLt⟩ : Fin 32) k' d))
    (h3 : ∀ d : Fin 64, x3 (ix3 (0 : Fin 1) (0 : Fin 1) d) = M (ix3 (⟨(i 0).val, (i 0).isLt⟩ : Fin 32) (0 : Fin 1) d)) :
    prob (fun d : Fin 64 => x0 (ix3 (0 : Fin 1) r d)) (fun d : Fin 64 => x3 (ix3 (0 : Fin 1) (0 : Fin 1) d))
        (fun (k' : Fin 2048) (d : Fin 64) => x1 (ix3 (0 : Fin 1) k' d)) k
      = probsArr Q K M i := by
  unfold probsArr headProb
  have ek : k = (⟨(i 2).val, (i 2).isLt⟩ : Fin 2048) := Fin.ext hk
  rw [ek, funext h0, funext h3, show (fun (k' : Fin 2048) (d : Fin 64) => x1 (ix3 (0 : Fin 1) k' d))
      = (fun (k' : Fin 2048) (d : Fin 64) => K (ix3 (⟨(i 0).val, (i 0).isLt⟩ : Fin 32) k' d)) from funext fun k' => funext fun d => h1 k' d]

/-- The same for a weighted sum of a head's value rows. -/
theorem attend_eq_attendArr (x0 : (⟨3, ![1, 256, 64]⟩ : Shape).Idx → EReal) (x1 x2 : (⟨3, ![1, 2048, 64]⟩ : Shape).Idx → EReal)
    (x3 : (⟨3, ![1, 1, 64]⟩ : Shape).Idx → EReal) (i : (⟨3, ![32, 2048, 64]⟩ : Shape).Idx) (r : Fin 256) (d : Fin 64)
    (hd : d.val = (i 2).val)
    (h0 : ∀ d' : Fin 64, x0 (ix3 (0 : Fin 1) r d') = Q (ix3 (⟨(i 0).val, (i 0).isLt⟩ : Fin 32) (⟨(i 1).val, (i 1).isLt⟩ : Fin 2048) d'))
    (h1 : ∀ (k' : Fin 2048) (d' : Fin 64), x1 (ix3 (0 : Fin 1) k' d') = K (ix3 (⟨(i 0).val, (i 0).isLt⟩ : Fin 32) k' d'))
    (h2 : ∀ (k' : Fin 2048) (d' : Fin 64), x2 (ix3 (0 : Fin 1) k' d') = V (ix3 (⟨(i 0).val, (i 0).isLt⟩ : Fin 32) k' d'))
    (h3 : ∀ d' : Fin 64, x3 (ix3 (0 : Fin 1) (0 : Fin 1) d') = M (ix3 (⟨(i 0).val, (i 0).isLt⟩ : Fin 32) (0 : Fin 1) d')) :
    ∑ k : Fin 2048, prob (fun d' : Fin 64 => x0 (ix3 (0 : Fin 1) r d')) (fun d' : Fin 64 => x3 (ix3 (0 : Fin 1) (0 : Fin 1) d'))
        (fun (k' : Fin 2048) (d' : Fin 64) => x1 (ix3 (0 : Fin 1) k' d')) k * x2 (ix3 (0 : Fin 1) k d)
      = attendArr Q K V M i := by
  unfold attendArr headAttend headProb
  have ed : d = (⟨(i 2).val, (i 2).isLt⟩ : Fin 64) := Fin.ext hd
  rw [ed, funext h0, funext h3, show (fun (k' : Fin 2048) (d' : Fin 64) => x1 (ix3 (0 : Fin 1) k' d'))
      = (fun (k' : Fin 2048) (d' : Fin 64) => K (ix3 (⟨(i 0).val, (i 0).isLt⟩ : Fin 32) k' d')) from funext fun k' => funext fun d' => h1 k' d']
  exact Finset.sum_congr rfl fun k _ => by rw [h2 k]

end Heads

end Cert.TimelikeAttention

end
-- ==== Proof.AttnRow.lean ====
/-
  One query row of the attention kernel's block computation.

  The kernel's body works on a block of 256 query rows against a head's 2048 key rows: two matrix products give the plain
  and the time-like inner products, lane reductions give the norms, the row maximum and the row's sum of weights. This
  module reads each of those values at one row (and one key position, or one feature) and identifies the stored
  probabilities with the specification's `prob` of that row, and the stored output with the probabilities' sum against
  the value rows.
-/
import proofs.«104060_j4337916969590_2_alg».proof.Proof.Gen.KernelIdeal.Skeleton
import proofs.«104060_j4337916969590_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.AttnRow

open Cert.KernelIdeal Cert.KernelIdeal.Gen Idealize.ShloMosaic Idealize.ShloMosaic.ValueIdx Idealize.ShloMosaic.TcCoe
  Idealize.SL.Sem
open Cert.TimelikeAttention

/-! ## Layout operations at an index -/

section Layout
variable {α : Type}

/-- A column of 256 values cast to `[256, 1]` reads, at `(r, 0)`, the value at `r`. -/
theorem castCol_apply (v : S256.Idx → α) (r : Fin 256) (z : Fin 1) :
    shapeCast S256x1 v Gen.shapeCasts_S256_S256x1 (ix2 r z) = v (ix1 r) :=
  shapeCast_apply v _ _ _ (by
    have hz : z.val = 0 := by omega
    rw [Shape.rowMajor_val_one, Shape.rowMajor_val_two]
    show r.val = r.val * 1 + z.val
    rw [hz, Nat.mul_one, Nat.add_zero])

/-- A `[256, 1]` column broadcast over 64 features reads, at `(r, d)`, the column at `r`. -/
theorem bcastCol64_apply (v : S256x1.Idx → α) (r : Fin 256) (d : Fin 64) :
    broadcastTo S256x64 v Gen.broadcasts_S256x1_S256x64 (ix2 r d) = v (ix2 r (0 : Fin 1)) := by
  refine broadcastTo_apply v _ (ix2 r d) (ix2 r (0 : Fin 1)) fun ax => ?_
  match ax with
  | ⟨0, _⟩ => show r.val = if (256 : Nat) = 1 then 0 else r.val; rw [if_neg (by decide)]
  | ⟨1, _⟩ => show 0 = if (1 : Nat) = 1 then 0 else d.val; rw [if_pos rfl]

/-- A `[256, 1]` column broadcast over 2048 key positions reads, at `(r, k)`, the column at `r`. -/
theorem bcastCol2048_apply (v : S256x1.Idx → α) (r : Fin 256) (k : Fin 2048) :
    broadcastTo S256x2048 v Gen.broadcasts_S256x1_S256x2048 (ix2 r k) = v (ix2 r (0 : Fin 1)) := by
  refine broadcastTo_apply v _ (ix2 r k) (ix2 r (0 : Fin 1)) fun ax => ?_
  match ax with
  | ⟨0, _⟩ => show r.val = if (256 : Nat) = 1 then 0 else r.val; rw [if_neg (by decide)]
  | ⟨1, _⟩ => show 0 = if (1 : Nat) = 1 then 0 else k.val; rw [if_pos rfl]

end Layout

/-- Row `r` of a `[256, 64]` block with feature `d` put back is `(r, d)`. -/
theorem lift64 (r : Fin 256) (d : Fin (S256x64.size 1)) :
    Gen.reduces_S256x64_S256.lift (ix1 r) d = ix2 r (⟨d.val, d.isLt⟩ : Fin 64) := by
  funext c; apply Fin.ext
  match c with
  | ⟨0, _⟩ => rfl
  | ⟨1, _⟩ => rfl

/-- Row `r` of a `[256, 2048]` block with key position `k` put back is `(r, k)`. -/
theorem lift2048 (r : Fin 256) (k : Fin (S256x2048.size 1)) :
    Gen.reduces_S256x2048_S256.lift (ix1 r) k = ix2 r (⟨k.val, k.isLt⟩ : Fin 2048) := by
  funext c; apply Fin.ext
  match c with
  | ⟨0, _⟩ => rfl
  | ⟨1, _⟩ => rfl

/-! ## The two matrix products at an index -/

section Dots

theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
theorem lhs_qk_1 (i : S256x2048.Idx) (q : dot_S256x64_S2048x64_S256x2048_1_1_0_0_n_n.contr.Idx) :
    (dot_S256x64_S2048x64_S256x2048_1_1_0_0_n_n.lhsIdx i q 1).val = (q ⟨0, by decide⟩).val :=
  dot_S256x64_S2048x64_S256x2048_1_1_0_0_n_n.lhsIdx_val_of_single rfl i q
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
theorem rhs_qk_1 (i : S256x2048.Idx) (q : dot_S256x64_S2048x64_S256x2048_1_1_0_0_n_n.contr.Idx) :
    (dot_S256x64_S2048x64_S256x2048_1_1_0_0_n_n.rhsIdx i q 1).val = (q ⟨0, by decide⟩).val :=
  dot_S256x64_S2048x64_S256x2048_1_1_0_0_n_n.rhsIdx_val_of_single rfl i q

/-- Rows against rows: the product of a `[256, 64]` block with the transpose of a `[2048, 64]` block, at `(r, k)`, is
    the inner product of row `r` with row `k`. -/
theorem mmQK_apply (L : FVec Ideal S256x64 .bf16) (R : FVec Ideal S2048x64 .bf16) (r : Fin 256) (k : Fin 2048) :
    matmul dot_S256x64_S2048x64_S256x2048_1_1_0_0_n_n none L R (constant S256x2048 .f32 0x00000000#32) (ix2 r k)
      = ∑ d : Fin 64, L (ix2 r d) * R (ix2 k d) := by
  simp only [matmul]
  rw [Ideal.matmul_constant_zero_apply,
    ← Equiv.sum_comp (ValueIdx.contrEquiv1 dot_S256x64_S2048x64_S256x2048_1_1_0_0_n_n 64 rfl rfl).symm]
  refine Finset.sum_congr rfl fun d _ => ?_
  have hk := ValueIdx.contrEquiv1_symm_val dot_S256x64_S2048x64_S256x2048_1_1_0_0_n_n 64 rfl rfl d
  have el : dot_S256x64_S2048x64_S256x2048_1_1_0_0_n_n.lhsIdx (ix2 r k)
      ((ValueIdx.contrEquiv1 dot_S256x64_S2048x64_S256x2048_1_1_0_0_n_n 64 rfl rfl).symm d) = ix2 r d :=
    funext fun a => Fin.ext (by
      match a with
      | ⟨0, _⟩ => exact lhs_qk_0 _ _
      | ⟨1, _⟩ => exact (lhs_qk_1 _ _).trans hk)
  have er : dot_S256x64_S2048x64_S256x2048_1_1_0_0_n_n.rhsIdx (ix2 r k)
      ((ValueIdx.contrEquiv1 dot_S256x64_S2048x64_S256x2048_1_1_0_0_n_n 64 rfl rfl).symm d) = ix2 k d :=
    funext fun a => Fin.ext (by
      match a with
      | ⟨0, _⟩ => exact rhs_qk_0 _ _
      | ⟨1, _⟩ => exact (rhs_qk_1 _ _).trans hk)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- Rows against columns: the product of a `[256, 2048]` block with a `[2048, 64]` block, at `(r, d)`, is the sum over
    the 2048 positions. -/
theorem mmPV_apply (L : FVec Ideal S256x2048 .bf16) (R : FVec Ideal S2048x64 .bf16) (r : Fin 256) (d : Fin 64) :
    matmul dot_S256x2048_S2048x64_S256x64_1_0_0_1_n_n none L R (constant S256x64 .f32 0x00000000#32) (ix2 r d)
      = ∑ k : Fin 2048, L (ix2 r k) * R (ix2 k d) := by
  simp only [matmul]
  rw [Ideal.matmul_constant_zero_apply,
    ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 r d)
      ((ValueIdx.contrEquiv1 dot_S256x2048_S2048x64_S256x64_1_0_0_1_n_n 2048 rfl rfl).symm k) = ix2 r k :=
    funext fun a => Fin.ext (by
      match a with
      | ⟨0, _⟩ => exact lhs_pv_0 _ _
      | ⟨1, _⟩ => exact (lhs_pv_1 _ _).trans hk)
  have er : dot_S256x2048_S2048x64_S256x64_1_0_0_1_n_n.rhsIdx (ix2 r d)
      ((ValueIdx.contrEquiv1 dot_S256x2048_S2048x64_S256x64_1_0_0_1_n_n 2048 rfl rfl).symm k) = ix2 k d :=
    funext fun a => Fin.ext (by
      match a with
      | ⟨0, _⟩ => exact (rhs_pv_0 _ _).trans hk
      | ⟨1, _⟩ => exact rhs_pv_1 _ _)
  rw [el, er]

end Dots

/-! ## The rows the kernel reads -/

variable (x0 : Vec Ideal S1x256x64 .f32) (x1 x2 : Vec Ideal S1x2048x64 .f32) (x3 : Vec Ideal S1x1x64 .f32)

/-- Query row `r` of the block. -/
abbrev qrow (r : Fin 256) : Fin 64 → EReal := fun d => x0 (ix3 (0 : Fin 1) r d)
/-- The head's mask row. -/
abbrev mrow : Fin 64 → EReal := fun d => x3 (ix3 (0 : Fin 1) (0 : Fin 1) d)
/-- The head's key rows. -/
abbrev krows : Fin 2048 → Fin 64 → EReal := fun k' d => x1 (ix3 (0 : Fin 1) k' d)

/-- The query block with its unit axis dropped. -/
theorem pay4_apply (r : Fin 256) (d : Fin 64) : k1_pay4 (F := Ideal) x0 (ix2 r d) = qrow x0 r d :=
  shapeCast_1ab_ab_apply x0 Gen.shapeCasts_S1x256x64_S256x64 r d

/-- The value block with its unit axis dropped. -/
theorem pay5_apply (k : Fin 2048) (d : Fin 64) : k1_pay5 (F := Ideal) x2 (ix2 k d) = x2 (ix3 (0 : Fin 1) k d) :=
  shapeCast_1ab_ab_apply x2 Gen.shapeCasts_S1x2048x64_S2048x64 k d

/-- The key block with its unit axis dropped (the format change is the identity on extended reals). -/
theorem pay6_apply (k : Fin 2048) (d : Fin 64) : k1_pay6 (F := Ideal) x1 (ix2 k d) = krows x1 k d :=
  shapeCast_1ab_ab_apply x1 Gen.shapeCasts_S1x2048x64_S2048x64 k d

/-! ## The plain score -/

/-- The plain inner product of query row `r` with key row `k`, times 1/8. -/
theorem pay7_apply (r : Fin 256) (k : Fin 2048) :
    k1_pay7 (F := Ideal) x0 x1 (ix2 r k) = (∑ d : Fin 64, qrow x0 r d * krows x1 k d) * eighth := by
  show matmul dot_S256x64_S2048x64_S256x2048_1_1_0_0_n_n none (truncf .bf16 (k1_pay4 x0) Gen.bitsLt_bf16_f32) (k1_pay6 x1)
      (constant S256x2048 .f32 0x00000000#32) (ix2 r k) * Ideal.ofBits .f32 0x3E000000#32 = _
  rw [mmQK_apply]
  refine congrArg (· * eighth) (Finset.sum_congr rfl fun d _ => ?_)
  rw [pay6_apply]
  exact congrArg (· * krows x1 k d) (pay4_apply x0 r d)

/-! ## The time-like part, the norms and the rescale factor -/

/-- The masked query block. -/
def tlBlock : FVec Ideal S256x64 .f32 :=
  mulf (k1_pay4 x0)
    (broadcastTo S256x64 (shapeCast S1x64 (shapeCast S1x64 x3 Gen.shapeCasts_S1x1x64_S1x64) Gen.shapeCasts_S1x64_S1x64)
      Gen.broadcasts_S1x64_S256x64)

/-- The masked query block at `(r, d)` is the time-like part of query row `r`. -/
theorem tlBlock_apply (r : Fin 256) (d : Fin 64) : tlBlock x0 x3 (ix2 r d) = timelike (qrow x0 r) (mrow x3) d := by
  show k1_pay4 x0 (ix2 r d) * broadcastTo S256x64 _ Gen.broadcasts_S1x64_S256x64 (ix2 r d) = qrow x0 r d * mrow x3 d
  rw [pay4_apply, broadcastTo_1b_ab_apply, shapeCast_self]
  exact congrArg (qrow x0 r d * ·) (shapeCast_1ab_ab_apply x3 Gen.shapeCasts_S1x1x64_S1x64 (0 : Fin 1) d)

/-- The column of row norms of a `[256, 64]` block. -/
def normCol (v : FVec Ideal S256x64 .f32) : FVec Ideal S256x1 .f32 :=
  sqrt (shapeCast S256x1 (multiReduction .add [1] S256 (mulf v v) 0x00000000#32 Gen.reduces_S256x64_S256 (.inl rfl) rfl)
    Gen.shapeCasts_S256_S256x1)

/-- The column of norms at `(r, 0)` is the norm of row `r`. -/
theorem normCol_apply (v : FVec Ideal S256x64 .f32) (a : Fin 64 → EReal) (r : Fin 256) (hv : ∀ d, v (ix2 r d) = a d)
    (z : Fin 1) : normCol v (ix2 r z) = norm a := by
  show Ideal.sqrt (shapeCast S256x1 _ Gen.shapeCasts_S256_S256x1 (ix2 r z)) = Ideal.sqrt (∑ d : Fin 64, a d * a d)
  rw [castCol_apply]
  refine congrArg Ideal.sqrt ?_
  refine (Ideal.multiReduction_add_single (mulf v v) _ Gen.reduces_S256x64_S256 _ _ (ix1 r)).trans ?_
  show ∑ d : Fin 64, mulf v v (Gen.reduces_S256x64_S256.lift (ix1 r) d) = _
  refine Finset.sum_congr rfl fun d _ => ?_
  refine (congrArg (mulf v v) (lift64 r d)).trans ?_
  show v (ix2 r d) * v (ix2 r d) = _
  rw [hv]

/-- The column of rescale factors. -/
def rescCol : FVec Ideal S256x1 .f32 :=
  select (cmpf .ogt (normCol (tlBlock x0 x3)) (broadcast S256x1 (Scalar.ofBits .f32 0x358637BD#32)))
    (divf (normCol (k1_pay4 x0)) (maximumf (normCol (tlBlock x0 x3)) (broadcast S256x1 (Scalar.ofBits .f32 0x322BCC77#32))))
    (broadcast S256x1 (Scalar.ofBits .f32 0x00000000#32))

/-- The column of rescale factors at `(r, 0)` is the specification's rescale factor of row `r`. -/
theorem rescCol_apply (r : Fin 256) (z : Fin 1) : rescCol x0 x3 (ix2 r z) = rescale (qrow x0 r) (mrow x3) := by
  show Scalar.select (Ideal.cmp .ogt (normCol (tlBlock x0 x3) (ix2 r z)) (Ideal.ofBits .f32 0x358637BD#32))
      (Ideal.div (normCol (k1_pay4 x0) (ix2 r z)) (max (normCol (tlBlock x0 x3) (ix2 r z)) (Ideal.ofBits .f32 0x322BCC77#32)))
      (Ideal.ofBits .f32 0x00000000#32) = _
  rw [normCol_apply (tlBlock x0 x3) (timelike (qrow x0 r) (mrow x3)) r (tlBlock_apply x0 x3 r) z,
    normCol_apply (k1_pay4 x0) (qrow x0 r) r (pay4_apply x0 r) z]
  rfl

/-- The kernel's time-like product is the product of the rescaled masked block with the keys, times 1/8. -/
theorem pay8_eq : k1_pay8 (F := Ideal) x0 x1 x3
    = mulf (matmul dot_S256x64_S2048x64_S256x2048_1_1_0_0_n_n none
        (truncf .bf16 (mulf (tlBlock x0 x3) (broadcastTo S256x64 (rescCol x0 x3) Gen.broadcasts_S256x1_S256x64))
          Gen.bitsLt_bf16_f32)
        (k1_pay6 x1) (constant S256x2048 .f32 0x00000000#32))
      (broadcast S256x2048 (Scalar.ofBits .f32 0x3E000000#32)) := rfl

/-- The inner product of the rescaled time-like part of row `r` with key row `k`, times 1/8. -/
theorem pay8_apply (r : Fin 256) (k : Fin 2048) :
    k1_pay8 (F := Ideal) x0 x1 x3 (ix2 r k)
      = (∑ d : Fin 64, (timelike (qrow x0 r) (mrow x3) d * rescale (qrow x0 r) (mrow x3)) * krows x1 k d) * eighth := by
  rw [pay8_eq]
  show matmul dot_S256x64_S2048x64_S256x2048_1_1_0_0_n_n none _ (k1_pay6 x1) (constant S256x2048 .f32 0x00000000#32) (ix2 r k)
      * Ideal.ofBits .f32 0x3E000000#32 = _
  rw [mmQK_apply]
  refine congrArg (· * eighth) (Finset.sum_congr rfl fun d _ => ?_)
  rw [pay6_apply]
  refine congrArg (· * krows x1 k d) ?_
  show tlBlock x0 x3 (ix2 r d) * broadcastTo S256x64 (rescCol x0 x3) Gen.broadcasts_S256x1_S256x64 (ix2 r d) = _
  rw [tlBlock_apply, bcastCol64_apply, rescCol_apply]

/-! ## The softmax of a block, row by row -/

/-- The block of corrected scores. -/
def scoreBlk (v12 v36 : FVec Ideal S256x2048 .f32) : FVec Ideal S256x2048 .f32 :=
  subf v12 (mulf (broadcast S256x2048 (Scalar.ofBits .f32 0x3F000000#32)) v36)

/-- The block of weights: the exponential of each entry below its row's maximum. -/
def wtBlk (s : FVec Ideal S256x2048 .f32) : FVec Ideal S256x2048 .f32 :=
  exp (subf s (broadcastTo S256x2048
    (shapeCast S256x1 (multiReduction .maximumf [1] S256 s 0xFF800000#32 Gen.reduces_S256x2048_S256 (.inl rfl) rfl)
      Gen.shapeCasts_S256_S256x1) Gen.broadcasts_S256x1_S256x2048))

/-- The block of probabilities: each weight over its row's sum. -/
def probBlk (w : FVec Ideal S256x2048 .f32) : FVec Ideal S256x2048 .f32 :=
  divf w (broadcastTo S256x2048
    (shapeCast S256x1 (multiReduction .add [1] S256 w 0x00000000#32 Gen.reduces_S256x2048_S256 (.inl rfl) rfl)
      Gen.shapeCasts_S256_S256x1) Gen.broadcasts_S256x1_S256x2048)

/-- The kernel's probabilities are the row softmax of the corrected scores. -/
theorem pay1_eq (v12 v36 : FVec Ideal S256x2048 .f32) :
    k1_pay1 (F := Ideal) v12 v36 = probBlk (wtBlk (scoreBlk v12 v36)) := rfl

/-- A weight at `(r, k)`, for a row `r` whose entries are `f`. -/
theorem wtBlk_apply (s : FVec Ideal S256x2048 .f32) (f : Fin 2048 → EReal) (r : Fin 256) (hs : ∀ k, s (ix2 r k) = f k)
    (k : Fin 2048) :
    wtBlk s (ix2 r k) = Ideal.exp (f k - (Finset.univ : Finset (Fin 2048)).fold max negInf f) := by
  show Ideal.exp (s (ix2 r k) - broadcastTo S256x2048 _ Gen.broadcasts_S256x1_S256x2048 (ix2 r k)) = _
  rw [bcastCol2048_apply, castCol_apply, hs]
  refine congrArg (fun t => Ideal.exp (f k - t)) ?_
  refine (Ideal.multiReduction_maximumf_single s _ Gen.reduces_S256x2048_S256 _ _ (ix1 r)).trans ?_
  show (Finset.univ : Finset (Fin 2048)).fold max negInf (s ∘ Gen.reduces_S256x2048_S256.lift (ix1 r)) = _
  refine congrArg (fun g => (Finset.univ : Finset (Fin 2048)).fold max negInf g) (funext fun k' => ?_)
  show s (Gen.reduces_S256x2048_S256.lift (ix1 r) k') = f k'
  refine (congrArg s (lift2048 r k')).trans ?_
  exact hs k'

/-- A probability at `(r, k)`, for a row `r` whose weights are `g`. -/
theorem probBlk_apply (w : FVec Ideal S256x2048 .f32) (g : Fin 2048 → EReal) (r : Fin 256) (hw : ∀ k, w (ix2 r k) = g k)
    (k : Fin 2048) :
    probBlk w (ix2 r k) = Ideal.div (g k) (∑ k' : Fin 2048, g k') := by
  show Ideal.div (w (ix2 r k)) (broadcastTo S256x2048 _ Gen.broadcasts_S256x1_S256x2048 (ix2 r k)) = _
  rw [bcastCol2048_apply, castCol_apply, hw]
  refine congrArg (Ideal.div (g k)) ?_
  refine (Ideal.multiReduction_add_single w _ Gen.reduces_S256x2048_S256 _ _ (ix1 r)).trans ?_
  show ∑ k' : Fin 2048, w (Gen.reduces_S256x2048_S256.lift (ix1 r) k') = _
  refine Finset.sum_congr rfl fun k' _ => ?_
  refine (congrArg w (lift2048 r k')).trans ?_
  exact hw k'

/-! ## What the kernel stores -/

/-- The corrected score of row `r` against key `k`. -/
theorem scoreBlk_apply (r : Fin 256) (k : Fin 2048) :
    scoreBlk (k1_pay7 x0 x1) (k1_pay8 x0 x1 x3) (ix2 r k) = score (qrow x0 r) (mrow x3) (krows x1) k := by
  show k1_pay7 x0 x1 (ix2 r k) - Ideal.ofBits .f32 0x3F000000#32 * k1_pay8 x0 x1 x3 (ix2 r k) = _
  rw [pay7_apply, pay8_apply]
  rfl

/-- The kernel's probability at `(r, k)` is the specification's probability of key `k` in the row of query `r`. -/
theorem probs_apply (r : Fin 256) (k : Fin 2048) :
    k1_pay1 (F := Ideal) (k1_pay7 x0 x1) (k1_pay8 x0 x1 x3) (ix2 r k)
      = Cert.TimelikeAttention.prob (fun d : Fin 64 => x0 (ix3 (0 : Fin 1) r d))
          (fun d : Fin 64 => x3 (ix3 (0 : Fin 1) (0 : Fin 1) d))
          (fun (k' : Fin 2048) (d : Fin 64) => x1 (ix3 (0 : Fin 1) k' d)) k := by
  rw [pay1_eq]
  exact probBlk_apply _ (weight (qrow x0 r) (mrow x3) (krows x1)) r
    (fun k' => wtBlk_apply _ (score (qrow x0 r) (mrow x3) (krows x1)) r (fun k'' => scoreBlk_apply x0 x1 x3 r k'') k') k

/-- The stored probabilities: the same block with a unit axis in front. -/
theorem probs_store_apply (r : Fin 256) (k : Fin 2048) :
    k1_pay2 (F := Ideal) (k1_pay7 x0 x1) (k1_pay8 x0 x1 x3) (ix3 (0 : Fin 1) r k)
      = Cert.TimelikeAttention.prob (fun d : Fin 64 => x0 (ix3 (0 : Fin 1) r d))
          (fun d : Fin 64 => x3 (ix3 (0 : Fin 1) (0 : Fin 1) d))
          (fun (k' : Fin 2048) (d : Fin 64) => x1 (ix3 (0 : Fin 1) k' d)) k := by
  refine (shapeCast_ab_1ab_apply (k1_pay1 (F := Ideal) (k1_pay7 x0 x1) (k1_pay8 x0 x1 x3))
    Gen.shapeCasts_S256x2048_S1x256x2048 (0 : Fin 1) r k).trans ?_
  exact probs_apply x0 x1 x3 r k

/-- The stored output at `(r, d)`: the probabilities of row `r` against feature `d` of the value rows. -/
theorem attend_store_apply (r : Fin 256) (d : Fin 64) :
    k1_pay3 (F := Ideal) (k1_pay5 x2) (k1_pay7 x0 x1) (k1_pay8 x0 x1 x3) (ix3 (0 : Fin 1) r d)
      = ∑ k : Fin 2048,
          Cert.TimelikeAttention.prob (fun d : Fin 64 => x0 (ix3 (0 : Fin 1) r d))
            (fun d : Fin 64 => x3 (ix3 (0 : Fin 1) (0 : Fin 1) d))
            (fun (k' : Fin 2048) (d : Fin 64) => x1 (ix3 (0 : Fin 1) k' d)) k * x2 (ix3 (0 : Fin 1) k d) := by
  show shapeCast S1x256x64
      (matmul dot_S256x2048_S2048x64_S256x64_1_0_0_1_n_n none
        (truncf .bf16 (k1_pay1 (F := Ideal) (k1_pay7 x0 x1) (k1_pay8 x0 x1 x3)) Gen.bitsLt_bf16_f32)
        (truncf .bf16 (k1_pay5 x2) Gen.bitsLt_bf16_f32) (constant S256x64 .f32 0x00000000#32))
      Gen.shapeCasts_S256x64_S1x256x64 (ix3 (0 : Fin 1) r d) = _
  refine (shapeCast_ab_1ab_apply _ Gen.shapeCasts_S256x64_S1x256x64 (0 : Fin 1) r d).trans ?_
  refine (mmPV_apply (truncf .bf16 (k1_pay1 (F := Ideal) (k1_pay7 x0 x1) (k1_pay8 x0 x1 x3)) Gen.bitsLt_bf16_f32)
    (truncf .bf16 (k1_pay5 x2) Gen.bitsLt_bf16_f32) r d).trans ?_
  refine Finset.sum_congr rfl fun k _ => ?_
  show k1_pay1 (F := Ideal) (k1_pay7 x0 x1) (k1_pay8 x0 x1 x3) (ix2 r k) * k1_pay5 x2 (ix2 k d) = _
  rw [probs_apply, pay5_apply]

end Cert.KernelIdeal.AttnRow

end
-- ==== Proof.AttnBlocks.lean ====
/-
  From blocks to arrays, for the attention region.

  The region walks 32 × 8 grid points: point `t` is head `t / 8` and query tile `t % 8`. It stages the tile's 256 query
  rows, all 2048 key rows and value rows of the head and the head's mask row, and writes back the tile's 256 rows of
  probabilities and of attended values. Each written block is the block of one whole-array function of the four arrays
  as the region finds them, and the 256 blocks tile each output, so after the region the two outputs ARE those
  functions. Stated at any contents `V` of the buffers at the region's entry.
-/
import proofs.«104060_j4337916969590_2_alg».proof.Proof.Gen.KernelIdeal.Frame
import proofs.«104060_j4337916969590_2_alg».proof.Proof.AttnSpec
import proofs.«104060_j4337916969590_2_alg».proof.Proof.AttnRow

set_option maxRecDepth 16384

noncomputable section

namespace Cert.KernelIdeal.AttnBlocks

open Cert.KernelIdeal Cert.KernelIdeal.Gen Cert.KernelIdeal.AttnRow Cert.TimelikeAttention
open Idealize.ShloMosaic Idealize.ShloMosaic.ValueIdx Idealize.ShloMosaic.TcCoe Idealize.SL.Sem
open Idealize.ShloMosaic.Pipeline (Dat)

/-- The zero offsets of a whole-buffer access, however spelt. -/
theorem hz3 : (![0, 0, 0] : Fin 3 → Nat) = fun _ => 0 := funext fun a => by fin_cases a <;> rfl

/-- The index maps over the grid: the query block and both output blocks move with (head, tile); the key, value and
    mask blocks move with the head only. -/
theorem idx_attn : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 3) = t.val / 8 ∧ win1_2.index t (1 : Fin 3) = 0 ∧ win1_2.index t (2 : Fin 3) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = t.val % 8 ∧ win1_4.index t (2 : Fin 3) = 0
    ∧ win1_5.index t (0 : Fin 3) = t.val / 8 ∧ win1_5.index t (1 : Fin 3) = t.val % 8 ∧ win1_5.index t (2 : Fin 3) = 0 :=
  (by decide +kernel : ∀ t : Fin grid1.N, _)

variable (V : (c : Dev nD) → (b : Ref sig .tc) → Buf (Elt Ideal) ((c : Thread nD τ).loc b))

/-! ## The probabilities (second output) -/

/-- What point `t` (head `t / 8`, query tile `t % 8`) writes back is its block of the whole-array function of the
    four arrays as the region finds them. -/
theorem flushed_p (c : Dev nD) (t : Fin cfg1.N) :
    (dat1 (F := Ideal) V c).flushed 5 t = ((cfg1.win 5).blk t).view.read (Elt Ideal) (probsArr (V c main_v9) (V c main_v12) (V c main_v21)) := by
  show (cfg1.win 5).cut (grid1.coords t) ((dat1 V c).after 5 t) = _
  rw [after1_5]
  unfold out1_5
  rw [View.canon_unit_zero hz3]
  simp only [View.ld_unit_zero (S := S1x256x64) hz3, View.ld_unit_zero (S := S1x2048x64) hz3, View.ld_unit_zero (S := S1x1x64) hz3]
  funext j
  obtain ⟨z, r, k, rfl⟩ : ∃ (z : Fin 1) (r : Fin 256) (k : Fin 2048), j = ix3 z r k := ⟨j 0, j 1, j 2, eq_ix3 j⟩
  obtain rfl : z = (0 : Fin 1) := Subsingleton.elim _ _
  refine (probs_store_apply _ _ _ r k).trans ?_
  obtain ⟨a00, a01, a02, a10, a11, a12, a20, a21, a22, a30, a31, a32, a40, a41, a42, a50, a51, a52⟩ := idx_attn t
  refine prob_eq_probsArr (V c main_v9) (V c main_v12) (V c main_v21) _ _ _ (((cfg1.win 5).blk t).view.emb (ix3 (0 : Fin 1) r k)) r k ?_ (fun d' => ?_) (fun k' d' => ?_) (fun d' => ?_)
  · show k.val = win1_5.index t (2 : Fin 3) * 2048 + 1 * k.val; omega
  · show V c main_v9 (((cfg1.win 0).blk t).view.emb (ix3 (0 : Fin 1) r d')) = V c main_v9 _
    refine congrArg (V c main_v9) ?_
    funext a; apply Fin.ext
    match a with
    | ⟨0, _⟩ => show win1_0.index t (0 : Fin 3) * 1 + 1 * (0 : Fin 1).val = win1_5.index t (0 : Fin 3) * 1 + 1 * (0 : Fin 1).val; omega
    | ⟨1, _⟩ => show win1_0.index t (1 : Fin 3) * 256 + 1 * r.val = win1_5.index t (1 : Fin 3) * 256 + 1 * r.val; omega
    | ⟨2, _⟩ => show win1_0.index t (2 : Fin 3) * 64 + 1 * d'.val = d'.val; omega
  · show V c main_v12 (((cfg1.win 1).blk t).view.emb (ix3 (0 : Fin 1) k' d')) = V c main_v12 _
    refine congrArg (V c main_v12) ?_
    funext a; apply Fin.ext
    match a with
    | ⟨0, _⟩ => show win1_1.index t (0 : Fin 3) * 1 + 1 * (0 : Fin 1).val = win1_5.index t (0 : Fin 3) * 1 + 1 * (0 : Fin 1).val; omega
    | ⟨1, _⟩ => show win1_1.index t (1 : Fin 3) * 2048 + 1 * k'.val = k'.val; omega
    | ⟨2, _⟩ => show win1_1.index t (2 : Fin 3) * 64 + 1 * d'.val = d'.val; omega
  · show V c main_v21 (((cfg1.win 3).blk t).view.emb (ix3 (0 : Fin 1) (0 : Fin 1) d')) = V c main_v21 _
    refine congrArg (V c main_v21) ?_
    funext a; apply Fin.ext
    match a with
    | ⟨0, _⟩ => show win1_3.index t (0 : Fin 3) * 1 + 1 * (0 : Fin 1).val = win1_5.index t (0 : Fin 3) * 1 + 1 * (0 : Fin 1).val; omega
    | ⟨1, _⟩ => show win1_3.index t (1 : Fin 3) * 1 + 1 * (0 : Fin 1).val = (0 : Fin 1).val; omega
    | ⟨2, _⟩ => show win1_3.index t (2 : Fin 3) * 64 + 1 * d'.val = d'.val; omega

/-- An entry is in point `t`'s block iff each coordinate is in the block's range. -/
theorem mem_blk_p (t : Fin cfg1.N) (i : S32x2048x2048.Idx) :
    i ∈ ((cfg1.win 5).blk t).view.set ↔ ∀ a : Fin 3, win1_5.index t a * S1x256x2048.size a ≤ (i a).val ∧ (i a).val < win1_5.index t a * S1x256x2048.size a + S1x256x2048.size a := by
  show i ∈ ((View.whole main_v22_1).slice (win1_5.rect t)).set ↔ _
  rw [View.set_slice_whole, Rect.mem_set_unit]
  exact Iff.rfl

/-- Row `q` of head `g` is written back by point `8·g + q / 256`: the blocks tile the array. -/
theorem cover_p (i : S32x2048x2048.Idx) : ∃ t : Fin cfg1.N, (cfg1.win 5).flush t = true ∧ i ∈ ((cfg1.win 5).blk t).view.set := by
  have hi0 : (i 0).val < 32 := (i 0).isLt
  have hi1 : (i 1).val < 2048 := (i 1).isLt
  have hi2 : (i 2).val < 2048 := (i 2).isLt
  have ht : (i 0).val * 8 + (i 1).val / 256 < cfg1.N := by show _ < 256; omega
  obtain ⟨-, -, -, -, -, -, -, -, -, -, -, -, a40, a41, a42, a50, a51, a52⟩ := idx_attn ⟨(i 0).val * 8 + (i 1).val / 256, ht⟩
  have e0 : win1_5.index ⟨(i 0).val * 8 + (i 1).val / 256, ht⟩ (0 : Fin 3) = (i 0).val := by
    rw [a50]; show ((i 0).val * 8 + (i 1).val / 256) / 8 = (i 0).val; omega
  have e1 : win1_5.index ⟨(i 0).val * 8 + (i 1).val / 256, ht⟩ (1 : Fin 3) = (i 1).val / 256 := by
    rw [a51]; show ((i 0).val * 8 + (i 1).val / 256) % 8 = (i 1).val / 256; omega
  refine ⟨⟨(i 0).val * 8 + (i 1).val / 256, ht⟩, flush1_5 _, ?_⟩
  rw [mem_blk_p]
  intro a
  match a with
  | ⟨0, _⟩ =>
    show win1_5.index ⟨(i 0).val * 8 + (i 1).val / 256, ht⟩ (0 : Fin 3) * 1 ≤ (i 0).val ∧ (i 0).val < win1_5.index ⟨(i 0).val * 8 + (i 1).val / 256, ht⟩ (0 : Fin 3) * 1 + 1
    rw [e0]; omega
  | ⟨1, _⟩ =>
    show win1_5.index ⟨(i 0).val * 8 + (i 1).val / 256, ht⟩ (1 : Fin 3) * 256 ≤ (i 1).val ∧ (i 1).val < win1_5.index ⟨(i 0).val * 8 + (i 1).val / 256, ht⟩ (1 : Fin 3) * 256 + 256
    rw [e1]; omega
  | ⟨2, _⟩ =>
    show win1_5.index ⟨(i 0).val * 8 + (i 1).val / 256, ht⟩ (2 : Fin 3) * 2048 ≤ (i 2).val ∧ (i 2).val < win1_5.index ⟨(i 0).val * 8 + (i 1).val / 256, ht⟩ (2 : Fin 3) * 2048 + 2048
    rw [a52]; omega

/-- The array after the region. -/
theorem final_p (c : Dev nD) : (dat1 (F := Ideal) V c).arrAt 5 cfg1.N = probsArr (V c main_v9) (V c main_v12) (V c main_v21) :=
  (dat1 (F := Ideal) V c).arrAt_eq_of_cover 5 (probsArr (V c main_v9) (V c main_v12) (V c main_v21)) (fun t _ => flushed_p V c t) cover_p

/-! ## The attended values (first output) -/

/-- What point `t` (head `t / 8`, query tile `t % 8`) writes back is its block of the whole-array function of the
    four arrays as the region finds them. -/
theorem flushed_o (c : Dev nD) (t : Fin cfg1.N) :
    (dat1 (F := Ideal) V c).flushed 4 t = ((cfg1.win 4).blk t).view.read (Elt Ideal) (attendArr (V c main_v9) (V c main_v12) (V c main_v15) (V c main_v21)) := by
  show (cfg1.win 4).cut (grid1.coords t) ((dat1 V c).after 4 t) = _
  rw [after1_4]
  unfold out1_4
  rw [View.canon_unit_zero hz3]
  simp only [View.ld_unit_zero (S := S1x256x64) hz3, View.ld_unit_zero (S := S1x2048x64) hz3, View.ld_unit_zero (S := S1x1x64) hz3]
  funext j
  obtain ⟨z, r, d, rfl⟩ : ∃ (z : Fin 1) (r : Fin 256) (d : Fin 64), j = ix3 z r d := ⟨j 0, j 1, j 2, eq_ix3 j⟩
  obtain rfl : z = (0 : Fin 1) := Subsingleton.elim _ _
  refine (attend_store_apply _ _ _ _ r d).trans ?_
  obtain ⟨a00, a01, a02, a10, a11, a12, a20, a21, a22, a30, a31, a32, a40, a41, a42, a50, a51, a52⟩ := idx_attn t
  refine attend_eq_attendArr (V c main_v9) (V c main_v12) (V c main_v15) (V c main_v21) _ _ _ _ (((cfg1.win 4).blk t).view.emb (ix3 (0 : Fin 1) r d)) r d ?_ (fun d' => ?_) (fun k' d' => ?_) (fun k' d' => ?_) (fun d' => ?_)
  · show d.val = win1_4.index t (2 : Fin 3) * 64 + 1 * d.val; omega
  · show V c main_v9 (((cfg1.win 0).blk t).view.emb (ix3 (0 : Fin 1) r d')) = V c main_v9 _
    refine congrArg (V c main_v9) ?_
    funext a; apply Fin.ext
    match a with
    | ⟨0, _⟩ => show win1_0.index t (0 : Fin 3) * 1 + 1 * (0 : Fin 1).val = win1_4.index t (0 : Fin 3) * 1 + 1 * (0 : Fin 1).val; omega
    | ⟨1, _⟩ => show win1_0.index t (1 : Fin 3) * 256 + 1 * r.val = win1_4.index t (1 : Fin 3) * 256 + 1 * r.val; omega
    | ⟨2, _⟩ => show win1_0.index t (2 : Fin 3) * 64 + 1 * d'.val = d'.val; omega
  · show V c main_v12 (((cfg1.win 1).blk t).view.emb (ix3 (0 : Fin 1) k' d')) = V c main_v12 _
    refine congrArg (V c main_v12) ?_
    funext a; apply Fin.ext
    match a with
    | ⟨0, _⟩ => show win1_1.index t (0 : Fin 3) * 1 + 1 * (0 : Fin 1).val = win1_4.index t (0 : Fin 3) * 1 + 1 * (0 : Fin 1).val; omega
    | ⟨1, _⟩ => show win1_1.index t (1 : Fin 3) * 2048 + 1 * k'.val = k'.val; omega
    | ⟨2, _⟩ => show win1_1.index t (2 : Fin 3) * 64 + 1 * d'.val = d'.val; omega
  · show V c main_v15 (((cfg1.win 2).blk t).view.emb (ix3 (0 : Fin 1) k' d')) = V c main_v15 _
    refine congrArg (V c main_v15) ?_
    funext a; apply Fin.ext
    match a with
    | ⟨0, _⟩ => show win1_2.index t (0 : Fin 3) * 1 + 1 * (0 : Fin 1).val = win1_4.index t (0 : Fin 3) * 1 + 1 * (0 : Fin 1).val; omega
    | ⟨1, _⟩ => show win1_2.index t (1 : Fin 3) * 2048 + 1 * k'.val = k'.val; omega
    | ⟨2, _⟩ => show win1_2.index t (2 : Fin 3) * 64 + 1 * d'.val = d'.val; omega
  · show V c main_v21 (((cfg1.win 3).blk t).view.emb (ix3 (0 : Fin 1) (0 : Fin 1) d')) = V c main_v21 _
    refine congrArg (V c main_v21) ?_
    funext a; apply Fin.ext
    match a with
    | ⟨0, _⟩ => show win1_3.index t (0 : Fin 3) * 1 + 1 * (0 : Fin 1).val = win1_4.index t (0 : Fin 3) * 1 + 1 * (0 : Fin 1).val; omega
    | ⟨1, _⟩ => show win1_3.index t (1 : Fin 3) * 1 + 1 * (0 : Fin 1).val = (0 : Fin 1).val; omega
    | ⟨2, _⟩ => show win1_3.index t (2 : Fin 3) * 64 + 1 * d'.val = d'.val; omega

/-- An entry is in point `t`'s block iff each coordinate is in the block's range. -/
theorem mem_blk_o (t : Fin cfg1.N) (i : S32x2048x64.Idx) :
    i ∈ ((cfg1.win 4).blk t).view.set ↔ ∀ a : Fin 3, win1_4.index t a * S1x256x64.size a ≤ (i a).val ∧ (i a).val < win1_4.index t a * S1x256x64.size a + S1x256x64.size a := by
  show i ∈ ((View.whole main_v22_0).slice (win1_4.rect t)).set ↔ _
  rw [View.set_slice_whole, Rect.mem_set_unit]
  exact Iff.rfl

/-- Row `q` of head `g` is written back by point `8·g + q / 256`: the blocks tile the array. -/
theorem cover_o (i : S32x2048x64.Idx) : ∃ t : Fin cfg1.N, (cfg1.win 4).flush t = true ∧ i ∈ ((cfg1.win 4).blk t).view.set := by
  have hi0 : (i 0).val < 32 := (i 0).isLt
  have hi1 : (i 1).val < 2048 := (i 1).isLt
  have hi2 : (i 2).val < 64 := (i 2).isLt
  have ht : (i 0).val * 8 + (i 1).val / 256 < cfg1.N := by show _ < 256; omega
  obtain ⟨-, -, -, -, -, -, -, -, -, -, -, -, a40, a41, a42, a50, a51, a52⟩ := idx_attn ⟨(i 0).val * 8 + (i 1).val / 256, ht⟩
  have e0 : win1_4.index ⟨(i 0).val * 8 + (i 1).val / 256, ht⟩ (0 : Fin 3) = (i 0).val := by
    rw [a40]; show ((i 0).val * 8 + (i 1).val / 256) / 8 = (i 0).val; omega
  have e1 : win1_4.index ⟨(i 0).val * 8 + (i 1).val / 256, ht⟩ (1 : Fin 3) = (i 1).val / 256 := by
    rw [a41]; show ((i 0).val * 8 + (i 1).val / 256) % 8 = (i 1).val / 256; omega
  refine ⟨⟨(i 0).val * 8 + (i 1).val / 256, ht⟩, flush1_4 _, ?_⟩
  rw [mem_blk_o]
  intro a
  match a with
  | ⟨0, _⟩ =>
    show win1_4.index ⟨(i 0).val * 8 + (i 1).val / 256, ht⟩ (0 : Fin 3) * 1 ≤ (i 0).val ∧ (i 0).val < win1_4.index ⟨(i 0).val * 8 + (i 1).val / 256, ht⟩ (0 : Fin 3) * 1 + 1
    rw [e0]; omega
  | ⟨1, _⟩ =>
    show win1_4.index ⟨(i 0).val * 8 + (i 1).val / 256, ht⟩ (1 : Fin 3) * 256 ≤ (i 1).val ∧ (i 1).val < win1_4.index ⟨(i 0).val * 8 + (i 1).val / 256, ht⟩ (1 : Fin 3) * 256 + 256
    rw [e1]; omega
  | ⟨2, _⟩ =>
    show win1_4.index ⟨(i 0).val * 8 + (i 1).val / 256, ht⟩ (2 : Fin 3) * 64 ≤ (i 2).val ∧ (i 2).val < win1_4.index ⟨(i 0).val * 8 + (i 1).val / 256, ht⟩ (2 : Fin 3) * 64 + 64
    rw [a42]; omega

/-- The array after the region. -/
theorem final_o (c : Dev nD) : (dat1 (F := Ideal) V c).arrAt 4 cfg1.N = attendArr (V c main_v9) (V c main_v12) (V c main_v15) (V c main_v21) :=
  (dat1 (F := Ideal) V c).arrAt_eq_of_cover 4 (attendArr (V c main_v9) (V c main_v12) (V c main_v15) (V c main_v21)) (fun t _ => flushed_o V c t) cover_o

end Cert.KernelIdeal.AttnBlocks

end
-- ==== Proof.ProjHost.lean ====
/-
  The reference's projection, flattened.

  The reference projects a [2, 2048, 1024] array with one `dot_general` against the weight's rows; the kernel flattens
  the array to [4096, 1024] first and projects the flat rows. Row `r` of the flat array is row `r % 2048` of batch
  `r / 2048`, so the projection of the flattened array is the flattened `dot_general`: both read, at (r, e), the sum
  over the features `k` of `A[r / 2048, r % 2048, k] · W[e, k]`.
-/
import proofs.«104060_j4337916969590_2_alg».proof.Proof.Gen.ReferenceIdeal.Read
import proofs.«104060_j4337916969590_2_alg».proof.Proof.ProjSpec
import Idealize.ShloMosaic.Lib.Pipeline.Value

noncomputable section

namespace Cert.ReferenceIdeal.ProjHost

open Cert.ReferenceIdeal Cert.ReferenceIdeal.Read Cert.Projection Idealize.ShloMosaic Idealize.ShloMosaic.ValueIdx

/-- The projection of the flattened array is the reference's `dot_general`, flattened. -/
theorem proj_reshape (A : (⟨S2x2048x1024, .f32⟩ : BufTy).Contents (Elt Ideal)) (W : (⟨S1024x1024, .f32⟩ : BufTy).Contents (Elt Ideal))
    (h : S2x2048x1024.ShapeCasts (⟨2, ![4096, 1024]⟩ : Shape)) :
    projArr (shapeCast (⟨2, ![4096, 1024]⟩ : Shape) A h) W
      = shapeCast (⟨2, ![4096, 1024]⟩ : Shape) (val_main_v1 (F := Ideal) A W) h := by
  funext i
  obtain ⟨r, e, rfl⟩ : ∃ (r : Fin 4096) (e : Fin 1024), i = ix2 r e := ⟨i 0, i 1, eq_ix2 i⟩
  have hr : r.val < 4096 := r.isLt
  have hb : r.val / 2048 < 2 := by omega
  have hl : r.val % 2048 < 2048 := Nat.mod_lt _ (by decide)
  have hcast : ∀ (X : S2x2048x1024.Idx → EReal) (c : Fin 1024),
      shapeCast (⟨2, ![4096, 1024]⟩ : Shape) X h (ix2 r c) = X (ix3 (⟨r.val / 2048, hb⟩ : Fin 2) (⟨r.val % 2048, hl⟩ : Fin 2048) c) := fun X c =>
    shapeCast_apply X h (ix2 r c) (ix3 (⟨r.val / 2048, hb⟩ : Fin 2) (⟨r.val % 2048, hl⟩ : Fin 2048) c) (by
      rw [Shape.rowMajor_val_three, Shape.rowMajor_val_two]
      show (r.val / 2048 * 2048 + r.val % 2048) * 1024 + c.val = r.val * 1024 + c.val
      omega)
  refine Eq.trans ?_ ((hcast (val_main_v1 (F := Ideal) A W) e).trans (val_main_v1_apply A W _)).symm
  show ∑ k : Fin 1024, shapeCast (⟨2, ![4096, 1024]⟩ : Shape) A h (ix2 r k) * W (ix2 e k) = _
  refine Finset.sum_congr rfl fun k _ => ?_
  rw [hcast A k]
  refine congrArg₂ (· * ·) (congrArg A ?_) (congrArg W ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

end Cert.ReferenceIdeal.ProjHost

end
-- ==== Proof.RefRow.lean ====
/-
  The reference's softmax probabilities, one query row at a time.

  The reference computes, for batch b, head h, query position q and key position k, the softmax of the corrected
  scores of row (b, h, q). This module reads that element back through the reference's operations down to three
  leaves — the query projection Q, the mask row and the key projection K — and identifies it with the
  specification's `prob` of that row: norms, rescale factor, score, row maximum, weight, probability, in that order.
  The one arithmetic fact used is that dividing by √64 is multiplying by 1/8.
-/
import proofs.«104060_j4337916969590_2_alg».proof.Proof.Gen.ReferenceIdeal.Read
import proofs.«104060_j4337916969590_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefRow

open Cert.ReferenceIdeal Cert.ReferenceIdeal.Read Idealize.ShloMosaic Idealize.ShloMosaic.ValueIdx
open Cert.TimelikeAttention

variable (x0 : (⟨S2x2048x1024, .f32⟩ : BufTy).Contents (Elt Ideal))
  (x1 x2 : (⟨S1024x1024, .f32⟩ : BufTy).Contents (Elt Ideal))
  (x5 : (⟨S1024, .i1⟩ : BufTy).Contents (Elt Ideal))

/-- The query row of head `h` of batch `b` at position `q`. -/
abbrev qrow (b : Fin 2) (h : Fin 16) (q : Fin 2048) : Fin 64 → EReal :=
  fun d => val_main_v3 (F := Ideal) x0 x1 (ix4 b h q d)
/-- The mask row of head `h`. -/
abbrev mrow (h : Fin 16) : Fin 64 → EReal :=
  fun d => val_main_v14 (F := Ideal) x5 (ix2 h d)
/-- The key rows of head `h` of batch `b`. -/
abbrev krows (b : Fin 2) (h : Fin 16) : Fin 2048 → Fin 64 → EReal :=
  fun k' d => val_main_v6 (F := Ideal) x0 x2 (ix4 b h k' d)

/-! ## The norms -/

/-- The sum of squares of the query row. -/
theorem sumsq_q_apply (b : Fin 2) (h : Fin 16) (q : Fin 2048) :
    val_main_call0_v1 (F := Ideal) x0 x1 (ix3 b h q) = ∑ d : Fin 64, qrow x0 x1 b h q d * qrow x0 x1 b h q d := by
  rw [val_main_call0_v1_apply, val_main_call0_cst_apply]
  show Ideal.ofBits .f32 0x00000000#32 + _ = _
  rw [Ideal.ofBits_zero_f32, zero_add]
  refine Finset.sum_congr rfl fun d _ => ?_
  rw [val_main_call0_v0_apply]
  have e : idx_main_call0_v1 (ix3 b h q) d = ix4 b h q d :=
    funext fun a => Fin.ext (by match a with | ⟨0, _⟩ => rfl | ⟨1, _⟩ => rfl | ⟨2, _⟩ => rfl | ⟨3, _⟩ => rfl)
  rw [e]; rfl

/-- The reference's first norm is the norm of the query row. -/
theorem norm_q_apply (b : Fin 2) (h : Fin 16) (q : Fin 2048) (z : Fin 1) :
    val_main_v18 (F := Ideal) x0 x1 (ix4 b h q z) = norm (qrow x0 x1 b h q) := by
  rw [val_main_v18_apply, val_main_call0_v2_apply]
  have e : idx_main_call0_v2 (ix4 b h q z) = ix3 b h q :=
    funext fun a => Fin.ext (by match a with | ⟨0, _⟩ => rfl | ⟨1, _⟩ => rfl | ⟨2, _⟩ => rfl)
  rw [e, sumsq_q_apply]; rfl

/-- The masked query is the time-like part of the query row. -/
theorem timelike_apply (b : Fin 2) (h : Fin 16) (q : Fin 2048) (d : Fin 64) :
    val_main_v17 (F := Ideal) x0 x1 x5 (ix4 b h q d) = timelike (qrow x0 x1 b h q) (mrow x5 h) d := by
  rw [val_main_v17_apply, val_main_v16_apply, val_main_v15_apply]
  have e : idx_main_v15 (idx_main_v16 (ix4 b h q d)) = ix2 h d :=
    funext fun a => Fin.ext (by match a with | ⟨0, _⟩ => rfl | ⟨1, _⟩ => rfl)
  rw [e]; rfl

/-- The sum of squares of the time-like part. -/
theorem sumsq_t_apply (b : Fin 2) (h : Fin 16) (q : Fin 2048) :
    val_main_call1_v1 (F := Ideal) x0 x1 x5 (ix3 b h q)
      = ∑ d : Fin 64, timelike (qrow x0 x1 b h q) (mrow x5 h) d * timelike (qrow x0 x1 b h q) (mrow x5 h) d := by
  rw [val_main_call1_v1_apply, val_main_call1_cst_apply]
  show Ideal.ofBits .f32 0x00000000#32 + _ = _
  rw [Ideal.ofBits_zero_f32, zero_add]
  refine Finset.sum_congr rfl fun d _ => ?_
  rw [val_main_call1_v0_apply]
  have e : idx_main_call1_v1 (ix3 b h q) d = ix4 b h q d :=
    funext fun a => Fin.ext (by match a with | ⟨0, _⟩ => rfl | ⟨1, _⟩ => rfl | ⟨2, _⟩ => rfl | ⟨3, _⟩ => rfl)
  rw [e, timelike_apply]; rfl

/-- The reference's second norm is the norm of the time-like part. -/
theorem norm_t_apply (b : Fin 2) (h : Fin 16) (q : Fin 2048) (z : Fin 1) :
    val_main_v19 (F := Ideal) x0 x1 x5 (ix4 b h q z) = norm (timelike (qrow x0 x1 b h q) (mrow x5 h)) := by
  rw [val_main_v19_apply, val_main_call1_v2_apply]
  have e : idx_main_call1_v2 (ix4 b h q z) = ix3 b h q :=
    funext fun a => Fin.ext (by match a with | ⟨0, _⟩ => rfl | ⟨1, _⟩ => rfl | ⟨2, _⟩ => rfl)
  rw [e, sumsq_t_apply]; rfl

/-! ## The rescale factor -/

/-- The reference's selected factor is the specification's rescale factor. -/
theorem rescale_apply (b : Fin 2) (h : Fin 16) (q : Fin 2048) (z : Fin 1) :
    val_main_v26 (F := Ideal) x0 x1 x5 (ix4 b h q z) = rescale (qrow x0 x1 b h q) (mrow x5 h) := by
  rw [val_main_v26_apply, val_main_v21_apply, val_main_v24_apply, val_main_v23_apply, val_main_v25_apply,
    val_main_v20_apply, val_main_v22_apply, val_main_cst_0_apply, val_main_cst_1_apply, val_main_cst_2_apply,
    norm_t_apply, norm_q_apply]
  rfl

/-! ## The score -/

/-- Dividing by √64 is multiplying by 1/8, on the words the two programs spell. -/
theorem div_sqrt64 (x : EReal) :
    Ideal.div x (Ideal.sqrt (Ideal.ofBits .f32 0x42800000#32)) = x * Ideal.ofBits .f32 0x3E000000#32 := by
  have h64 : Ideal.ofBits .f32 0x42800000#32 = ((64 : ℝ) : EReal) := by
    simp [Ideal.ofBits, Ideal.ieee, -EReal.coe_mul]; norm_num
  have h8 : Ideal.ofBits .f32 0x3E000000#32 = ((1 / 8 : ℝ) : EReal) := by
    simp [Ideal.ofBits, Ideal.ieee, -EReal.coe_mul]; norm_num
  have hs : Real.sqrt 64 = 8 := by
    rw [show (64 : ℝ) = 8 * 8 by norm_num]; exact Real.sqrt_mul_self (by norm_num)
  rw [h64, h8, Ideal.sqrt_coe, if_neg (by norm_num), hs]
  exact Ideal.div_coe (by norm_num) x

/-- The word the row maximum starts from is −∞. -/
theorem negInf_eq_bot : Ideal.ofBits .f32 0xFF800000#32 = ⊥ := by
  simp [Ideal.ofBits, Ideal.ieee]

/-- The plain inner product of the query row with key row `k`. -/
theorem qk_apply (b : Fin 2) (h : Fin 16) (q k : Fin 2048) :
    val_main_v10 (F := Ideal) x0 x1 x2 (ix4 b h q k) = ∑ d : Fin 64, qrow x0 x1 b h q d * krows x0 x2 b h k d := by
  rw [val_main_v10_apply]
  refine Finset.sum_congr rfl fun d _ => ?_
  have el : lidx_main_v10 (ix4 b h q k) d = ix4 b h q d :=
    funext fun a => Fin.ext (by match a with | ⟨0, _⟩ => rfl | ⟨1, _⟩ => rfl | ⟨2, _⟩ => rfl | ⟨3, _⟩ => rfl)
  have er : ridx_main_v10 (ix4 b h q k) d = ix4 b h k d :=
    funext fun a => Fin.ext (by match a with | ⟨0, _⟩ => rfl | ⟨1, _⟩ => rfl | ⟨2, _⟩ => rfl | ⟨3, _⟩ => rfl)
  rw [el, er]

/-- The inner product of the rescaled time-like part with key row `k`. -/
theorem tk_apply (b : Fin 2) (h : Fin 16) (q k : Fin 2048) :
    val_main_v29 (F := Ideal) x0 x1 x2 x5 (ix4 b h q k)
      = ∑ d : Fin 64, (timelike (qrow x0 x1 b h q) (mrow x5 h) d * rescale (qrow x0 x1 b h q) (mrow x5 h))
          * krows x0 x2 b h k d := by
  rw [val_main_v29_apply]
  refine Finset.sum_congr rfl fun d _ => ?_
  have el : lidx_main_v29 (ix4 b h q k) d = ix4 b h q d :=
    funext fun a => Fin.ext (by match a with | ⟨0, _⟩ => rfl | ⟨1, _⟩ => rfl | ⟨2, _⟩ => rfl | ⟨3, _⟩ => rfl)
  have er : ridx_main_v29 (ix4 b h q k) d = ix4 b h k d :=
    funext fun a => Fin.ext (by match a with | ⟨0, _⟩ => rfl | ⟨1, _⟩ => rfl | ⟨2, _⟩ => rfl | ⟨3, _⟩ => rfl)
  have e : idx_main_v27 (ix4 b h q d) = ix4 b h q (0 : Fin 1) :=
    funext fun a => Fin.ext (by match a with | ⟨0, _⟩ => rfl | ⟨1, _⟩ => rfl | ⟨2, _⟩ => rfl | ⟨3, _⟩ => rfl)
  rw [el, er, val_main_v28_apply, val_main_v27_apply, e, rescale_apply, timelike_apply]
  rfl

/-- The reference's corrected score is the specification's. -/
theorem score_apply (b : Fin 2) (h : Fin 16) (q k : Fin 2048) :
    val_main_v34 (F := Ideal) x0 x1 x2 x5 (ix4 b h q k)
      = score (qrow x0 x1 b h q) (mrow x5 h) (krows x0 x2 b h) k := by
  rw [val_main_v34_apply, val_main_v12_apply, val_main_v33_apply, val_main_v31_apply, val_main_v11_apply,
    val_main_v30_apply, val_main_v32_apply, val_main_v0_apply, val_main_cst_apply, val_main_cst_3_apply,
    qk_apply, tk_apply]
  show Ideal.div _ (Ideal.sqrt (Ideal.ofBits .f32 0x42800000#32))
      - Ideal.ofBits .f32 0x3F000000#32 * Ideal.div _ (Ideal.sqrt (Ideal.ofBits .f32 0x42800000#32)) = _
  rw [div_sqrt64, div_sqrt64]
  rfl

/-! ## The row maximum -/

/-- Row `(b, h, q)` of the scores with key position `k` put back is the element `(b, h, q, k)`. -/
theorem lift_ix3 (hr : S2x16x2048x2048.Reduces [3] S2x16x2048) (b : Fin 2) (h : Fin 16) (q : Fin 2048)
    (k : Fin (S2x16x2048x2048.size 3)) :
    hr.lift (ix3 b h q) k = ix4 b h q (⟨k.val, k.isLt⟩ : Fin 2048) := by
  funext c; apply Fin.ext
  match c with
  | ⟨0, _⟩ => rfl
  | ⟨1, _⟩ => rfl
  | ⟨2, _⟩ => rfl
  | ⟨3, _⟩ => rfl

/-- The reference's row maximum is the specification's. -/
theorem top_apply (b : Fin 2) (h : Fin 16) (q : Fin 2048) :
    val_main_v37 (F := Ideal) x0 x1 x2 x5 (ix3 b h q)
      = top (qrow x0 x1 b h q) (mrow x5 h) (krows x0 x2 b h) := by
  have hr : S2x16x2048x2048.Reduces [3] S2x16x2048 := by decide
  rw [val_main_v37_apply, val_main_v36_apply, val_main_cst_5_apply]
  unfold val_main_v35
  rw [Host.reduce_eq_fold_single FloatOps.maximumf _ _ Gen.reducesTo_S2x16x2048x2048_S2x16x2048_d3 hr Gen.h_S_]
  have hf : (val_main_v34 (F := Ideal) x0 x1 x2 x5 ∘ hr.lift (ix3 b h q))
      = score (qrow x0 x1 b h q) (mrow x5 h) (krows x0 x2 b h) :=
    funext fun k => by
      show val_main_v34 (F := Ideal) x0 x1 x2 x5 (hr.lift (ix3 b h q) k) = _
      rw [lift_ix3, score_apply]
      rfl
  rw [hf]
  show max (Ideal.ofBits .f32 0xFF800000#32)
      ((Finset.univ : Finset (Fin 2048)).fold max (Ideal.ofBits .f32 0xFF800000#32)
        (score (qrow x0 x1 b h q) (mrow x5 h) (krows x0 x2 b h))) = _
  rw [negInf_eq_bot, bot_sup_eq]
  show _ = (Finset.univ : Finset (Fin 2048)).fold max (Ideal.ofBits .f32 0xFF800000#32) _
  rw [negInf_eq_bot]

/-! ## Weights and probabilities -/

/-- The exponential of a score below the row maximum. -/
theorem weight_apply (b : Fin 2) (h : Fin 16) (q k : Fin 2048) :
    val_main_v41 (F := Ideal) x0 x1 x2 x5 (ix4 b h q k)
      = weight (qrow x0 x1 b h q) (mrow x5 h) (krows x0 x2 b h) k := by
  rw [val_main_v41_apply, val_main_v40_apply, val_main_v39_apply, val_main_v38_apply]
  have e : idx_main_v38 (idx_main_v39 (ix4 b h q k)) = ix3 b h q :=
    funext fun a => Fin.ext (by match a with | ⟨0, _⟩ => rfl | ⟨1, _⟩ => rfl | ⟨2, _⟩ => rfl)
  rw [e, top_apply, score_apply]
  rfl

/-- The row's sum of weights. -/
theorem denom_apply (b : Fin 2) (h : Fin 16) (q k : Fin 2048) :
    val_main_v44 (F := Ideal) x0 x1 x2 x5 (ix4 b h q k)
      = ∑ k' : Fin 2048, weight (qrow x0 x1 b h q) (mrow x5 h) (krows x0 x2 b h) k' := by
  rw [val_main_v44_apply, val_main_v43_apply]
  have e : idx_main_v43 (idx_main_v44 (ix4 b h q k)) = ix3 b h q :=
    funext fun a => Fin.ext (by match a with | ⟨0, _⟩ => rfl | ⟨1, _⟩ => rfl | ⟨2, _⟩ => rfl)
  rw [e, val_main_v42_apply, val_main_cst_6_apply]
  show Ideal.ofBits .f32 0x00000000#32 + _ = _
  rw [Ideal.ofBits_zero_f32, zero_add]
  refine Finset.sum_congr rfl fun k' _ => ?_
  have e' : idx_main_v42 (ix3 b h q) k' = ix4 b h q k' :=
    funext fun a => Fin.ext (by match a with | ⟨0, _⟩ => rfl | ⟨1, _⟩ => rfl | ⟨2, _⟩ => rfl | ⟨3, _⟩ => rfl)
  rw [e', weight_apply]

/-- The reference's softmax output at `(b, h, q, k)` is the specification's probability of key `k` in the row of
    query `q`: of the query row of Q, the mask row and the key rows of K. -/
theorem probs_apply (b : Fin 2) (h : Fin 16) (q k : Fin 2048) :
    val_main_v45 (F := Ideal) x0 x1 x2 x5 (ix4 b h q k)
      = Cert.TimelikeAttention.prob
          (fun d : Fin 64 => val_main_v3 (F := Ideal) x0 x1 (ix4 b h q d))
          (fun d : Fin 64 => val_main_v14 (F := Ideal) x5 (ix2 h d))
          (fun (k' : Fin 2048) (d : Fin 64) => val_main_v6 (F := Ideal) x0 x2 (ix4 b h k' d)) k := by
  rw [val_main_v45_apply, weight_apply, denom_apply]
  rfl

end Cert.ReferenceIdeal.RefRow

end
-- ==== Proof.Values.lean ====
/-
  The kernel's two results are the reference's.

  Walking the three regions: the first leaves the three projections, each the flattened `dot_general` of the reference;
  split into heads they are the reference's Q, K, V with batch and head merged, and the mask rows are the reference's
  mask rows. The second region leaves, at merged head 16·b + h, the row-level softmax probabilities of that head — the
  reference's probabilities at (b, h) — and their weighted sums of the value rows — the reference's attended values.
  Put back into flat rows these are the reference's flattened attended values, so the third region leaves the flattened
  last `dot_general`, and unflattening gives the first result; unmerging the probabilities gives the second.
-/
import proofs.«104060_j4337916969590_2_alg».proof.Proof.Boundaries
import proofs.«104060_j4337916969590_2_alg».proof.Proof.HeadLayout
import proofs.«104060_j4337916969590_2_alg».proof.Proof.ProjBlocks
import proofs.«104060_j4337916969590_2_alg».proof.Proof.AttnBlocks
import proofs.«104060_j4337916969590_2_alg».proof.Proof.ProjHost
import proofs.«104060_j4337916969590_2_alg».proof.Proof.RefRow

set_option maxRecDepth 16384

noncomputable section

namespace Cert.KernelIdeal.Values

open Cert.KernelIdeal Cert.KernelIdeal.Gen Cert.KernelIdeal.Boundaries Cert.KernelIdeal.HeadLayout
open Cert.KernelIdeal.ProjBlocks Cert.KernelIdeal.AttnBlocks Cert.Projection Cert.TimelikeAttention
open Idealize.ShloMosaic Idealize.ShloMosaic.ValueIdx Idealize.ShloMosaic.TcCoe Idealize.SL.Sem
open Cert.ReferenceIdeal.Read (val_main_v1 val_main_v3 val_main_v4 val_main_v6 val_main_v7 val_main_v9 val_main_v14
  val_main_v45 val_main_v46 val_main_v47 val_main_v48 val_main_v49)

variable (m : (ℓ : Loc nD τ sig) → Buf (Elt Ideal) ℓ) (ρ : Dev nD → PrngReg) (c : Dev nD)

/-- The six argument arrays as launched. -/
abbrev x0 : (⟨Cert.ReferenceIdeal.S2x2048x1024, .f32⟩ : BufTy).Contents (Elt Ideal) := m ((c : Thread nD τ).loc main_arg0)
abbrev x1 : (⟨Cert.ReferenceIdeal.S1024x1024, .f32⟩ : BufTy).Contents (Elt Ideal) := m ((c : Thread nD τ).loc main_arg1)
abbrev x2 : (⟨Cert.ReferenceIdeal.S1024x1024, .f32⟩ : BufTy).Contents (Elt Ideal) := m ((c : Thread nD τ).loc main_arg2)
abbrev x3 : (⟨Cert.ReferenceIdeal.S1024x1024, .f32⟩ : BufTy).Contents (Elt Ideal) := m ((c : Thread nD τ).loc main_arg3)
abbrev x4 : (⟨Cert.ReferenceIdeal.S1024x1024, .f32⟩ : BufTy).Contents (Elt Ideal) := m ((c : Thread nD τ).loc main_arg4)
abbrev x5 : (⟨Cert.ReferenceIdeal.S1024, .i1⟩ : BufTy).Contents (Elt Ideal) := m ((c : Thread nD τ).loc main_arg5)

/-! ## After the first region: the three projections -/

theorem exit0_q : (W2 m ρ c (Proc.devRef .tc main_v6_0) : S4096x1024.Idx → EReal)
    = shapeCast S4096x1024 (val_main_v1 (F := Ideal) (x0 m c) (x1 m c)) shapeCasts_S2x2048x1024_S4096x1024 := by
  refine (W2_arr m ρ c 4).trans ((final_q (V1 m ρ) c).trans ?_)
  rw [entry0_rows m ρ c, entry0_wq m ρ c]
  exact Cert.ReferenceIdeal.ProjHost.proj_reshape _ _ _

theorem exit0_k : (W2 m ρ c (Proc.devRef .tc main_v6_1) : S4096x1024.Idx → EReal)
    = shapeCast S4096x1024 (val_main_v1 (F := Ideal) (x0 m c) (x2 m c)) shapeCasts_S2x2048x1024_S4096x1024 := by
  refine (W2_arr m ρ c 5).trans ((final_k (V1 m ρ) c).trans ?_)
  rw [entry0_rows m ρ c, entry0_wk m ρ c]
  exact Cert.ReferenceIdeal.ProjHost.proj_reshape _ _ _

theorem exit0_v : (W2 m ρ c (Proc.devRef .tc main_v6_2) : S4096x1024.Idx → EReal)
    = shapeCast S4096x1024 (val_main_v1 (F := Ideal) (x0 m c) (x3 m c)) shapeCasts_S2x2048x1024_S4096x1024 := by
  refine (W2_arr m ρ c 6).trans ((final_v (V1 m ρ) c).trans ?_)
  rw [entry0_rows m ρ c, entry0_wv m ρ c]
  exact Cert.ReferenceIdeal.ProjHost.proj_reshape _ _ _

/-! ## At the second region's entry: the reference's Q, K, V with heads merged, and its mask rows -/

theorem heads_q : (V3 m ρ c main_v9 : S32x2048x64.Idx → EReal) = merge (val_main_v3 (F := Ideal) (x0 m c) (x1 m c)) := by
  rw [entry1_q m ρ c, exit0_q m ρ c, toHeads_flat _ Cert.ReferenceIdeal.Gen.shapeCasts_S2x2048x1024_S2x2048x16x64]
  rfl

theorem heads_k : (V3 m ρ c main_v12 : S32x2048x64.Idx → EReal) = merge (val_main_v6 (F := Ideal) (x0 m c) (x2 m c)) := by
  rw [entry1_k m ρ c, exit0_k m ρ c, toHeads_flat _ Cert.ReferenceIdeal.Gen.shapeCasts_S2x2048x1024_S2x2048x16x64]
  rfl

theorem heads_v : (V3 m ρ c main_v15 : S32x2048x64.Idx → EReal) = merge (val_main_v9 (F := Ideal) (x0 m c) (x3 m c)) := by
  rw [entry1_v m ρ c, exit0_v m ρ c, toHeads_flat _ Cert.ReferenceIdeal.Gen.shapeCasts_S2x2048x1024_S2x2048x16x64]
  rfl

theorem heads_mask : (V3 m ρ c main_v21 : S32x1x64.Idx → EReal) = maskRows (val_main_v14 (F := Ideal) (x5 m c)) :=
  entry1_mask m ρ c

/-! ## After the second region -/

/-- The probability of merged head 16·b + h is the reference's at (b, h). -/
theorem headProb_eq (b : Fin 2) (h : Fin 16) (q k : Fin 2048) (hg : b.val * 16 + h.val < 32) :
    headProb (merge (val_main_v3 (F := Ideal) (x0 m c) (x1 m c))) (merge (val_main_v6 (F := Ideal) (x0 m c) (x2 m c)))
        (maskRows (val_main_v14 (F := Ideal) (x5 m c))) (⟨b.val * 16 + h.val, hg⟩ : Fin 32) q k
      = val_main_v45 (F := Ideal) (x0 m c) (x1 m c) (x2 m c) (x5 m c) (ix4 b h q k) := by
  rw [Cert.ReferenceIdeal.RefRow.probs_apply]
  unfold headProb
  rw [show (fun d : Fin 64 => merge (val_main_v3 (F := Ideal) (x0 m c) (x1 m c)) (ix3 (⟨b.val * 16 + h.val, hg⟩ : Fin 32) q d))
        = (fun d : Fin 64 => val_main_v3 (F := Ideal) (x0 m c) (x1 m c) (ix4 b h q d)) from funext fun d => merge_apply _ b h q d hg,
    show (fun d : Fin 64 => maskRows (val_main_v14 (F := Ideal) (x5 m c)) (ix3 (⟨b.val * 16 + h.val, hg⟩ : Fin 32) (0 : Fin 1) d))
        = (fun d : Fin 64 => val_main_v14 (F := Ideal) (x5 m c) (ix2 h d)) from funext fun d => maskRows_apply _ b h d hg,
    show (fun (k' : Fin 2048) (d : Fin 64) => merge (val_main_v6 (F := Ideal) (x0 m c) (x2 m c)) (ix3 (⟨b.val * 16 + h.val, hg⟩ : Fin 32) k' d))
        = (fun (k' : Fin 2048) (d : Fin 64) => val_main_v6 (F := Ideal) (x0 m c) (x2 m c) (ix4 b h k' d)) from
      funext fun k' => funext fun d => merge_apply _ b h k' d hg]

theorem exit1_p : (W4 m ρ c (Proc.devRef .tc main_v22_1) : S32x2048x2048.Idx → EReal)
    = probsArr (merge (val_main_v3 (F := Ideal) (x0 m c) (x1 m c))) (merge (val_main_v6 (F := Ideal) (x0 m c) (x2 m c)))
        (maskRows (val_main_v14 (F := Ideal) (x5 m c))) := by
  refine (W4_arr m ρ c 5).trans ((final_p (V3 m ρ) c).trans ?_)
  rw [heads_q m ρ c, heads_k m ρ c, heads_mask m ρ c]

theorem exit1_o : (W4 m ρ c (Proc.devRef .tc main_v22_0) : S32x2048x64.Idx → EReal)
    = merge (val_main_v46 (F := Ideal) (x0 m c) (x1 m c) (x2 m c) (x3 m c) (x5 m c)) := by
  refine (W4_arr m ρ c 4).trans ((Cert.KernelIdeal.AttnBlocks.final_o (V3 m ρ) c).trans ?_)
  rw [heads_q m ρ c, heads_k m ρ c, heads_v m ρ c, heads_mask m ρ c]
  funext i
  obtain ⟨g, q, d, rfl⟩ : ∃ (g : Fin 32) (q : Fin 2048) (d : Fin 64), i = ix3 g q d := ⟨i 0, i 1, i 2, eq_ix3 i⟩
  have hg : g.val < 32 := g.isLt
  have hb : g.val / 16 < 2 := by omega
  have hh : g.val % 16 < 16 := Nat.mod_lt _ (by decide)
  have hgg : (⟨g.val / 16, hb⟩ : Fin 2).val * 16 + (⟨g.val % 16, hh⟩ : Fin 16).val < 32 := by show g.val / 16 * 16 + g.val % 16 < 32; omega
  have eg : g = (⟨(⟨g.val / 16, hb⟩ : Fin 2).val * 16 + (⟨g.val % 16, hh⟩ : Fin 16).val, hgg⟩ : Fin 32) :=
    Fin.ext (by show g.val = g.val / 16 * 16 + g.val % 16; omega)
  rw [eg, merge_apply _ ⟨g.val / 16, hb⟩ ⟨g.val % 16, hh⟩ q d hgg, Cert.ReferenceIdeal.Read.val_main_v46_apply]
  show ∑ k : Fin 2048, headProb _ _ _ _ q k * merge (val_main_v9 (F := Ideal) (x0 m c) (x3 m c)) (ix3 _ k d) = _
  refine Finset.sum_congr rfl fun k _ => ?_
  rw [headProb_eq m c ⟨g.val / 16, hb⟩ ⟨g.val % 16, hh⟩ q k hgg, merge_apply _ ⟨g.val / 16, hb⟩ ⟨g.val % 16, hh⟩ k d hgg]
  refine congrArg₂ (· * ·) (congrArg _ ?_) (congrArg _ ?_)
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

/-! ## The second result -/

theorem result_probs_eq : (W7 m ρ c (Proc.devRef .tc main_v23) : S2x16x2048x2048.Idx → EReal)
    = val_main_v45 (F := Ideal) (x0 m c) (x1 m c) (x2 m c) (x5 m c) := by
  rw [result_probs m ρ c, exit1_p m ρ c]
  funext i
  obtain ⟨b, h, q, k, rfl⟩ : ∃ (b : Fin 2) (h : Fin 16) (q k : Fin 2048), i = ix4 b h q k := ⟨i 0, i 1, i 2, i 3, eq_ix4 i⟩
  have hg : b.val * 16 + h.val < 32 := by have := b.isLt; have := h.isLt; omega
  rw [unmerge_apply _ b h q k hg]
  exact headProb_eq m c b h q k hg

/-! ## The third region and the first result -/

theorem exit2 : (W6 m ρ c (Proc.devRef .tc main_v28) : S4096x1024.Idx → EReal)
    = shapeCast S4096x1024 (val_main_v49 (F := Ideal) (x0 m c) (x1 m c) (x2 m c) (x3 m c) (x4 m c) (x5 m c)) shapeCasts_S2x2048x1024_S4096x1024 := by
  refine (W6_arr m ρ c 2).trans ((Cert.KernelIdeal.ProjBlocks.final_o (V5 m ρ) c).trans ?_)
  rw [entry2_rows m ρ c, entry2_wo m ρ c, exit1_o m ρ c,
    fromHeads_merge _ Cert.ReferenceIdeal.Gen.shapeCasts_S2x2048x16x64_S2x2048x1024]
  exact Cert.ReferenceIdeal.ProjHost.proj_reshape _ _ _

theorem result_out_eq : (W7 m ρ c (Proc.devRef .tc main_v29) : S2x2048x1024.Idx → EReal)
    = val_main_v49 (F := Ideal) (x0 m c) (x1 m c) (x2 m c) (x3 m c) (x4 m c) (x5 m c) := by
  rw [result_out m ρ c, exit2 m ρ c]
  exact shapeCast_shapeCast _ _ _

end Cert.KernelIdeal.Values

end
-- ==== Proof.lean ====
/-
  Multi-head attention with a time-like (Minkowski) correction: the Pallas kernel against its jnp reference, over the
  extended reals.

  Both programs project x with Wq, Wk, Wv (rows contracted against the weights' rows), split the 1024 features into 16
  heads of 64, and for every (batch, head, query row) form the scores
      ⟨q, k⟩ / 8 − ½ · ⟨t, k⟩ / 8,      t = (q · mask) · (‖q‖ / max(‖q · mask‖, ε₂) if ‖q · mask‖ > ε₁ else 0),
  take the softmax over the 2048 keys (the second result), weight the value rows by it, put the heads back together and
  project with Wo (the first result). The kernel does this in three grid regions — the three input projections over
  blocks of 512 flat rows; attention per (batch·head, tile of 256 queries) with the head's keys and values whole; the
  output projection over blocks of 512 rows — with reshapes and transposes between them, and rounds matrix operands to
  bf16, which is the identity here. The two sides differ in one spelling only: the reference DIVIDES the scores by
  √64, the kernel MULTIPLIES by the f32 word of 1/8; √64 = 8 exactly, and dividing by 8 is multiplying by 1/8 on every
  extended real. (The reference's softmax also takes the maximum of −∞ and the row maximum, which is the row maximum.)
  No law here needs the inputs to be finite, so the precondition is never opened.

  The frames of the two kernel programs are the generated ones; the reference's is its generated run with the results
  dropped; nothing was rewritten by the idealization, so `preserves` is `True`. For the value claim the kernel's run is
  read at its last boundary (Proof/KernelRun.lean) and that boundary's two result buffers are the reference's stage
  values (Proof/Values.lean), which is what the reference's generated run ends at.
-/
import proofs.«104060_j4337916969590_2_alg».proof.Defs
import proofs.«104060_j4337916969590_2_alg».proof.Proof.Gen.Kernel
import proofs.«104060_j4337916969590_2_alg».proof.Proof.Gen.Kernel.Skeleton
import proofs.«104060_j4337916969590_2_alg».proof.Proof.Gen.Kernel.Launch
import proofs.«104060_j4337916969590_2_alg».proof.Proof.Gen.Kernel.Points
import proofs.«104060_j4337916969590_2_alg».proof.Proof.Gen.Kernel.Frame
import proofs.«104060_j4337916969590_2_alg».proof.Proof.Gen.KernelIdeal
import proofs.«104060_j4337916969590_2_alg».proof.Proof.Gen.KernelIdeal.Skeleton
import proofs.«104060_j4337916969590_2_alg».proof.Proof.Gen.KernelIdeal.Launch
import proofs.«104060_j4337916969590_2_alg».proof.Proof.Gen.KernelIdeal.Points
import proofs.«104060_j4337916969590_2_alg».proof.Proof.Gen.KernelIdeal.Frame
import proofs.«104060_j4337916969590_2_alg».proof.Proof.Gen.ReferenceIdeal
import proofs.«104060_j4337916969590_2_alg».proof.Proof.Gen.ReferenceIdeal.Run
import proofs.«104060_j4337916969590_2_alg».proof.Proof.Gen.ReferenceIdeal.Read
import proofs.«104060_j4337916969590_2_alg».proof.Proof.Gen.Pre_finite_inputs
import proofs.«104060_j4337916969590_2_alg».proof.Proof.KernelRun
import proofs.«104060_j4337916969590_2_alg».proof.Proof.Values
import Idealize.ShloMosaic.Adequacy
import Idealize.ShloMosaic.Init

set_option maxRecDepth 16384

noncomputable section

namespace Cert.Proof

open Idealize.ShloMosaic Idealize.SL.Sem

/-- The word-level kernel terminates, faults nowhere and leaves its arguments: the generated frame. -/
theorem frame_kernel : Cert.frame_Kernel := fun m ρ _ => Cert.Kernel.Gen.frame m ρ

/-- The same for the idealized kernel. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the six arguments both programs end with the first result at the reference's last
    projection and the second at its softmax probabilities, as functions of the kernel's argument arrays. -/
theorem algebraic : Cert.algebraic_KernelIdeal_ReferenceIdeal := by
  intro m ρ m' ρ' _ hagree
  refine ⟨fun c => Cert.ReferenceIdeal.Read.val_main_v49 (F := Ideal) (Cert.KernelIdeal.Values.x0 m c) (Cert.KernelIdeal.Values.x1 m c)
        (Cert.KernelIdeal.Values.x2 m c) (Cert.KernelIdeal.Values.x3 m c) (Cert.KernelIdeal.Values.x4 m c) (Cert.KernelIdeal.Values.x5 m c),
      fun c => Cert.ReferenceIdeal.Read.val_main_v45 (F := Ideal) (Cert.KernelIdeal.Values.x0 m c) (Cert.KernelIdeal.Values.x1 m c)
        (Cert.KernelIdeal.Values.x2 m c) (Cert.KernelIdeal.Values.x5 m c), ?_, ?_⟩
  · refine (θ_run Cert.KernelIdeal.defs _ _).mono (fun r h c => ?_) (Cert.KernelIdeal.RunValue.run_final (F := Ideal) m ρ)
    exact ⟨(h c Cert.KernelIdeal.main_v29 (by decide)).trans (Cert.KernelIdeal.Values.result_out_eq m ρ c),
      (h c Cert.KernelIdeal.main_v23 (by decide)).trans (Cert.KernelIdeal.Values.result_probs_eq m ρ c),
      (h c Cert.KernelIdeal.main_arg0 (by decide)).trans (Cert.KernelIdeal.Gen.W7_main_arg0 m ρ c),
      (h c Cert.KernelIdeal.main_arg1 (by decide)).trans (Cert.KernelIdeal.Gen.W7_main_arg1 m ρ c),
      (h c Cert.KernelIdeal.main_arg2 (by decide)).trans (Cert.KernelIdeal.Gen.W7_main_arg2 m ρ c),
      (h c Cert.KernelIdeal.main_arg3 (by decide)).trans (Cert.KernelIdeal.Gen.W7_main_arg3 m ρ c),
      (h c Cert.KernelIdeal.main_arg4 (by decide)).trans (Cert.KernelIdeal.Gen.W7_main_arg4 m ρ c),
      (h c Cert.KernelIdeal.main_arg5 (by decide)).trans (Cert.KernelIdeal.Gen.W7_main_arg5 m ρ c)⟩
  · refine (θ_run Cert.ReferenceIdeal.defs _ _).mono (fun r h c => ?_) (Cert.ReferenceIdeal.Value.run (F := Ideal) m' ρ')
    obtain ⟨e0, e1, e2, e3, e4, e5⟩ := hagree c
    refine ⟨(h c).1.trans ?_, (h c).2.1.trans ?_, (h c).2.2⟩
    · rw [Cert.ReferenceIdeal.Read.val_main_v49_eq, e0, e1, e2, e3, e4, e5]
    · rw [Cert.ReferenceIdeal.Read.val_main_v45_eq, e0, e1, e2, e5]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
